-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x512 : Shape := ⟨2, ![5000, 512]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S5000x1 : Shape := ⟨2, ![5000, 1]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩
abbrev S2000x16 : Shape := ⟨2, ![2000, 16]⟩
abbrev S2000x1 : Shape := ⟨2, ![2000, 1]⟩
abbrev S2000 : Shape := ⟨1, ![2000]⟩

abbrev nBuf : Space → Nat
  | .hbm => 96
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1600000, .i1⟩
  | .hbm, ⟨11, _⟩ => ⟨S_, .f32⟩
  | .hbm, ⟨12, _⟩ => ⟨S_, .f32⟩
  | .hbm, ⟨13, _⟩ => ⟨S1600000, .f32⟩
  | .hbm, ⟨14, _⟩ => ⟨S1600000, .f32⟩
  | .hbm, ⟨15, _⟩ => ⟨S1600000, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S1600000x1, .f32⟩
  | .hbm, ⟨67, _⟩ => ⟨S1600000x64, .f32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S100000x1, .f32⟩
  | .hbm, ⟨74, _⟩ => ⟨S1x64, .f32⟩
  | .hbm, ⟨75, _⟩ => ⟨S100000x64, .f32⟩
  | .hbm, ⟨76, _⟩ => ⟨S100000x16, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x16, .f32⟩
  | .hbm, ⟨86, _⟩ => ⟨S1600000x1, .f32⟩
  | .hbm, ⟨87, _⟩ => ⟨S1600000x16, .f32⟩
  | .hbm, ⟨88, _⟩ => ⟨S1600000x16, .f32⟩
  | .hbm, ⟨89, _⟩ => ⟨S_, .f32⟩
  | .hbm, ⟨90, _⟩ => ⟨S100000x16, .f32⟩
  | .hbm, ⟨91, _⟩ => ⟨S1600000x1, .i32⟩
  | .hbm, ⟨92, _⟩ => ⟨S100000x16, .f32⟩
  | .hbm, ⟨93, _⟩ => ⟨S100000x1, .f32⟩
  | .hbm, ⟨94, _⟩ => ⟨S1x16, .f32⟩
  | .hbm, ⟨95, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x16, .f32⟩
  | .local _ .vmem, ⟨17, _⟩ => ⟨S5000x16, .f32⟩
  | .local _ .vmem, ⟨18, _⟩ => ⟨S5000x16, .f32⟩
  | .local _ .vmem, ⟨19, _⟩ => ⟨S2000x16, .f32⟩
  | .local _ .vmem, ⟨20, _⟩ => ⟨S2000x16, .f32⟩
  | .local _ .vmem, ⟨21, _⟩ => ⟨S2000x16, .f32⟩
  | .local _ .vmem, ⟨22, _⟩ => ⟨S2000x16, .f32⟩
  | .local _ .vmem, ⟨23, _⟩ => ⟨S2000x1, .f32⟩
  | .local _ .vmem, ⟨24, _⟩ => ⟨S2000x1, .f32⟩
  | .local _ .vmem, ⟨25, _⟩ => ⟨S1x16, .f32⟩
  | .local _ .vmem, ⟨26, _⟩ => ⟨S2000x16, .f32⟩
  | .local _ .vmem, ⟨27, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S2000x1_S2000x16 : S2000x1.Broadcasts S2000x16
  broadcasts_S1x16_S2000x16 : S1x16.Broadcasts S2000x16
  reduces_S2000x16_S2000 : S2000x16.Reduces [1] S2000
  shapeCasts_S2000_S2000x1 : S2000.ShapeCasts S2000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x512_S512x64_S5000x64_1_0_0_1_n_n_wf : DotDims.WF S5000x512 S512x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x16.size a ≤ S100000x16.size a
  hwx3_1 : ∀ i : grid3.Coords, EltTy.bits .f32 = 32 ∨ (Rect.block (s := S100000x16) S2000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x16.size a ≤ S100000x16.size a
  hwx3_4 : ∀ i : grid3.Coords, EltTy.bits .f32 = 32 ∨ (Rect.block (s := S100000x16) S2000x16.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S2000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S2000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 174
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x16, .f32⟩
  | 5 => ⟨S16, .f32⟩
  | 6 => ⟨S100000x64, .f32⟩
  | 7 => ⟨S1x1600000, .i32⟩
  | 8 => ⟨S1600000, .i32⟩
  | 9 => ⟨S1x1600000, .i32⟩
  | 10 => ⟨S1600000, .i32⟩
  | 11 => ⟨S1600000, .i1⟩
  | 12 => ⟨S_, .f32⟩
  | 13 => ⟨S_, .f32⟩
  | 14 => ⟨S1600000, .f32⟩
  | 15 => ⟨S1600000, .f32⟩
  | 16 => ⟨S1600000, .f32⟩
  | 17 => ⟨S_, .f32⟩
  | 18 => ⟨S100000, .f32⟩
  | 19 => ⟨S1600000x1, .i32⟩
  | 20 => ⟨S1600000, .f32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x1, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S_, .f32⟩
  | 71 => ⟨S100000, .f32⟩
  | 72 => ⟨S100000, .f32⟩
  | 73 => ⟨S100000, .f32⟩
  | 74 => ⟨S100000x1, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x16, .f32⟩
  | 85 => ⟨S1x1600000, .i32⟩
  | 86 => ⟨S1600000, .i32⟩
  | 87 => ⟨S1x1600000, .i32⟩
  | 88 => ⟨S1600000, .i32⟩
  | 89 => ⟨S1600000, .i1⟩
  | 90 => ⟨S_, .f32⟩
  | 91 => ⟨S_, .f32⟩
  | 92 => ⟨S1600000, .f32⟩
  | 93 => ⟨S1600000, .f32⟩
  | 94 => ⟨S1600000, .f32⟩
  | 95 => ⟨S_, .f32⟩
  | 96 => ⟨S100000, .f32⟩
  | 97 => ⟨S1600000x1, .i32⟩
  | 98 => ⟨S1600000, .f32⟩
  | 99 => ⟨S100000, .f32⟩
  | 100 => ⟨S_, .f32⟩
  | 101 => ⟨S100000, .f32⟩
  | 102 => ⟨S100000, .f32⟩
  | 103 => ⟨S_, .f32⟩
  | 104 => ⟨S100000, .f32⟩
  | 105 => ⟨S100000, .i1⟩
  | 106 => ⟨S100000, .f32⟩
  | 107 => ⟨S_, .f32⟩
  | 108 => ⟨S_, .f32⟩
  | 109 => ⟨S100000, .f32⟩
  | 110 => ⟨S100000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S1600000, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x512, .f32⟩

abbrev hbmTy0_1 (i : Nat) : BufTy := match i % 128 with
  | 0 => ⟨S1600000, .i32⟩
  | 1 => ⟨S1600000x1, .i32⟩
  | 2 => ⟨S1600000, .f32⟩
  | 3 => ⟨S1600000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x16, .f32⟩
  | 13 => ⟨S1600000x1, .f32⟩
  | 14 => ⟨S1600000x16, .f32⟩
  | 15 => ⟨S1600000x16, .f32⟩
  | 16 => ⟨S_, .f32⟩
  | 17 => ⟨S100000x16, .f32⟩
  | 18 => ⟨S1600000x1, .i32⟩
  | 19 => ⟨S100000x16, .f32⟩
  | 20 => ⟨S_, .f32⟩
  | 21 => ⟨S100000, .f32⟩
  | 22 => ⟨S100000, .f32⟩
  | 23 => ⟨S100000, .f32⟩
  | 24 => ⟨S100000x1, .f32⟩
  | 25 => ⟨S100000x16, .f32⟩
  | 26 => ⟨S100000x16, .f32⟩
  | 27 => ⟨S100000x16, .f32⟩
  | 28 => ⟨S1x16, .f32⟩
  | 29 => ⟨S100000x16, .f32⟩
  | 30 => ⟨S100000x16, .f32⟩
  | 31 => ⟨S_, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x16, .f32⟩
  | 38 => ⟨S100000x16, .f32⟩
  | 39 => ⟨S100000x16, .f32⟩
  | 40 => ⟨S_, .f32⟩
  | 41 => ⟨S100000, .f32⟩
  | 42 => ⟨S100000x1, .f32⟩
  | 43 => ⟨S100000x1, .f32⟩
  | 44 => ⟨S100000x16, .f32⟩
  | 45 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_cst : Ref sig .tc := ⟨.hbm, 81, rfl⟩
abbrev main_call2_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_cst_13 : Ref sig .tc := ⟨.hbm, 91, rfl⟩
abbrev main_call3_v0 : Ref sig .tc := ⟨.hbm, 92, rfl⟩
abbrev main_call3_v1 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_call4_v0 : Ref sig .tc := ⟨.hbm, 108, rfl⟩
abbrev main_call4_v1 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_c_19 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_20 : Ref sig .tc := ⟨.hbm, 122, rfl⟩
abbrev main_v84 : Ref sig .tc := ⟨.hbm, 123, rfl⟩
abbrev main_v85 : Ref sig .tc := ⟨.hbm, 124, rfl⟩
abbrev main_c_21 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_22 : Ref sig .tc := ⟨.hbm, 132, rfl⟩
abbrev main_v92 : Ref sig .tc := ⟨.hbm, 133, rfl⟩
abbrev main_v93 : Ref sig .tc := ⟨.hbm, 134, rfl⟩
abbrev main_c_23 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_call5_cst : Ref sig .tc := ⟨.hbm, 159, rfl⟩
abbrev main_call5_v0 : Ref sig .tc := ⟨.hbm, 160, rfl⟩
abbrev main_call5_cst_0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_v6 : Ref sig .tc := ⟨.hbm, 167, rfl⟩
abbrev main_call5_cst_1 : Ref sig .tc := ⟨.hbm, 168, rfl⟩
abbrev main_call5_v7 : Ref sig .tc := ⟨.hbm, 169, rfl⟩
abbrev main_call5_v8 : Ref sig .tc := ⟨.hbm, 170, rfl⟩
abbrev main_call5_v9 : Ref sig .tc := ⟨.hbm, 171, rfl⟩
abbrev main_call5_v10 : Ref sig .tc := ⟨.hbm, 172, rfl⟩
abbrev main_v115 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  dot_S100000x512_S512x64_S100000x64_1_0_0_1_n_n_wf : DotDims.WF S100000x512 S512x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KRun.lean ====
/-
  The idealized kernel program's run with its result named.

  The program is eleven segments: stretches of host operations and four kernel launches.  Every weakly fair execution
  terminates, and at the end every unscoped buffer of core c holds the last boundary's contents: the fold of the host
  stretches and of each launch's write-backs from the launch memory.  Read at the result buffer this is the fourth
  launch's output array after its last grid point; read at the arguments it is the launch memory.
-/
import proofs.«154826_j3015067042303_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents and the six arguments end as launched. -/
theorem run : θ_run defs (onTc (τ := τ) (main (F := F))) ⟨m, fun _ => 0, ρ⟩ (fun r => ∀ c : Dev nD,
      r.2.mem ((c.tc : Thread nD τ).loc main_v68) = W11 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v68 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunValue

end
-- ==== Proof.KHostDefs.lean ====
/-
  The host operations between the launches, as named functions of the edge array e (2 × E words: row 0 the source
  node of each edge, row 1 its target).  They are the graph's fixed structure:

    w      the edge weight: 0 on a self-loop (source = target), 1 otherwise;
    deg    2 + the sum of w over the edges into a node (a scatter-add by target);
    dinv   deg^(-1/2) where deg > 0, else 0;
    coef   w · dinv[source] · dinv[target], an edge's normalised weight;
    selfc  2 · dinv · dinv, the self-loop's normalised weight;
    agg h  the neighbour sum: Σ over the edges into a node of coef · h[source, ·] (gather rows, scale, scatter-add);

  a node index is wrapped once (a negative word gets the node count added) before it is gathered at.  Both programs
  apply exactly these operations, so nothing here is ever opened: they are carried as functions.
-/
import proofs.«154826_j3015067042303_2_alg».proof.KernelIdeal
import proofs.«154826_j3015067042303_2_alg».proof.Proof.Gen.KernelIdeal

noncomputable section

namespace Cert.KernelIdeal.HostVal

open Cert.KernelIdeal Cert.KernelIdeal.Gen Idealize.ShloMosaic

variable {F : FTy → Type} [FloatOps F]

/-- The source node of each edge: row 0 of e. -/
def src (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The target node of each edge: row 1 of e. -/
def tgt (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A node index per edge, wrapped (a negative word gets 100000 added), as the column of indices a gather takes. -/
def wrapped (r : (⟨S1600000, .i32⟩ : BufTy).Contents (Elt F)) : (⟨S1600000x1, .i32⟩ : BufTy).Contents (Elt F) :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- The edge weight: 0 on a self-loop, 1 otherwise. -/
def wgt (e : (⟨S2x1600000, .i32⟩ : BufTy).Contents (Elt F)) : (⟨S1600000, .f32⟩ : BufTy).Contents (Elt F) :=
  id (select (cmpi .eq (src (F := F) e) (tgt (F := F) e)) (broadcastInDim S1600000 ![] bcast_S_S1600000 (constant S_ .f32 0x00000000#32))
    (broadcastInDim S1600000 ![] bcast_S_S1600000 (constant S_ .f32 0x3F800000#32)))

/-- The degree: 2 plus the weights of the edges into the node. -/
def deg (e : (⟨S2x1600000, .i32⟩ : BufTy).Contents (Elt F)) : (⟨S100000, .f32⟩ : BufTy).Contents (Elt F) :=
  addf (broadcastInDim S100000 ![] bcast_S_S100000 (constant S_ .f32 0x40000000#32))
    (Host.scatterAdd scatter_S100000_S1600000x1_S1600000_n_0_0_1 (broadcastInDim S100000 ![] bcast_S_S100000 (constant S_ .f32 0x00000000#32))
      (broadcastInDim S1600000x1 ![0] bcast_S1600000_S1600000x1_0 (tgt (F := F) e)) (wgt (F := F) e))

/-- deg^(-1/2) where the degree is positive, else 0. -/
def dinv (e : (⟨S2x1600000, .i32⟩ : BufTy).Contents (Elt F)) : (⟨S100000, .f32⟩ : BufTy).Contents (Elt F) :=
  select (cmpf (F := F) .ogt (deg (F := F) e) (broadcastInDim S100000 ![] bcast_S_S100000 (constant S_ .f32 0x00000000#32))) (Host.rsqrt (deg (F := F) e))
    (broadcastInDim S100000 ![] bcast_S_S100000 (id (constant S_ .f32 0x00000000#32)))

/-- An edge's normalised weight: w · dinv[source] · dinv[target]. -/
def coef (e : (⟨S2x1600000, .i32⟩ : BufTy).Contents (Elt F)) : (⟨S1600000, .f32⟩ : BufTy).Contents (Elt F) :=
  mulf (mulf (wgt (F := F) e) (Host.gather gather_S100000_S1600000x1_S1600000_n_0_n_n_0_1_1 (dinv (F := F) e) (wrapped (F := F) (src (F := F) e))))
    (Host.gather gather_S100000_S1600000x1_S1600000_n_0_n_n_0_1_1 (dinv (F := F) e) (wrapped (F := F) (tgt (F := F) e)))

/-- The self-loop's normalised weight: 2 · dinv · dinv. -/
def selfc (e : (⟨S2x1600000, .i32⟩ : BufTy).Contents (Elt F)) : (⟨S100000, .f32⟩ : BufTy).Contents (Elt F) :=
  mulf (mulf (broadcastInDim S100000 ![] bcast_S_S100000 (constant S_ .f32 0x40000000#32)) (dinv (F := F) e)) (dinv (F := F) e)

/-- Layer 1's neighbour sum of h (64 features): gather each edge's source row, scale by coef, scatter-add by target. -/
def agg1 (h : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 (tgt (F := F) e))
    (mulf (Host.gather gather_S100000x64_S1600000x1_S1600000x64_1_0_n_n_0_1_164 h (wrapped (F := F) (src (F := F) e)))
      (broadcastInDim S1600000x64 ![0, 1] bcast_S1600000x1_S1600000x64_0_1
        (broadcastInDim S1600000x1 ![0] bcast_S1600000_S1600000x1_0 (coef (F := F) e))))

/-- Layer 2's neighbour sum of h (16 features). -/
def agg2 (h : (⟨S100000x16, .f32⟩ : BufTy).Contents (Elt F)) (e : (⟨S2x1600000, .i32⟩ : BufTy).Contents (Elt F)) : (⟨S100000x16, .f32⟩ : BufTy).Contents (Elt F) :=
  Host.scatterAdd scatter_S100000x16_S1600000x1_S1600000x16_1_0_0_1 (broadcastInDim S100000x16 ![] bcast_S_S100000x16 (constant S_ .f32 0x00000000#32))
    (broadcastInDim S1600000x1 ![0] bcast_S1600000_S1600000x1_0 (tgt (F := F) e))
    (mulf (Host.gather gather_S100000x16_S1600000x1_S1600000x16_1_0_n_n_0_1_116 h (wrapped (F := F) (src (F := F) e)))
      (broadcastInDim S1600000x16 ![0, 1] bcast_S1600000x1_S1600000x16_0_1
        (broadcastInDim S1600000x1 ![0] bcast_S1600000_S1600000x1_0 (coef (F := F) e))))

end Cert.KernelIdeal.HostVal

end
-- ==== Proof.KHostRead.lean ====
/-
  The buffers the launches read, at each boundary of the kernel program, as the host functions of the launch memory:
  between two launches a buffer either is written by one of the stretch's operations — then it is that operation's
  function of buffers read the same way — or keeps what it held, and a launch changes only its own output array.
-/
import proofs.«154826_j3015067042303_2_alg».proof.Proof.Gen.KernelIdeal.Frame
import proofs.«154826_j3015067042303_2_alg».proof.Proof.KHostDefs
import Idealize.ShloMosaic.Lib.StableHlo.Run

set_option maxRecDepth 16384

noncomputable section

namespace Cert.KernelIdeal.HostRead

open Cert.KernelIdeal Cert.KernelIdeal.Gen Cert.KernelIdeal.HostVal
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Before the first launch: the graph's structure, computed once from the edge array -/

/-- The source-node vector is row 0 of the edge array. -/
theorem src5 : W5 m ρ c (Proc.devRef .tc main_v1) = src (F := F) (m ((c : Thread nD τ).loc main_arg1)) := by
  after_results_simp
  rfl

/-- The target-node vector is row 1 of the edge array. -/
theorem tgt5 : W5 m ρ c (Proc.devRef .tc main_v3) = tgt (F := F) (m ((c : Thread nD τ).loc main_arg1)) := by
  after_results_simp
  rfl

/-- The edges' normalised weights. -/
theorem coef5 : W5 m ρ c (Proc.devRef .tc main_v31) = coef (F := F) (m ((c : Thread nD τ).loc main_arg1)) := by
  after_results_simp
  rfl

/-- The self-loops' normalised weights. -/
theorem selfc5 : W5 m ρ c (Proc.devRef .tc main_v34) = selfc (F := F) (m ((c : Thread nD τ).loc main_arg1)) := by
  after_results_simp
  rfl

/-- No host operation writes an argument: it is as launched. -/
theorem arg0_5 : W5 m ρ c (Proc.devRef .tc main_arg0) = m ((c : Thread nD τ).loc main_arg0) := by after_results_simp
theorem arg2_5 : W5 m ρ c (Proc.devRef .tc main_arg2) = m ((c : Thread nD τ).loc main_arg2) := by after_results_simp
theorem arg3_5 : W5 m ρ c (Proc.devRef .tc main_arg3) = m ((c : Thread nD τ).loc main_arg3) := by after_results_simp
theorem arg4_5 : W5 m ρ c (Proc.devRef .tc main_arg4) = m ((c : Thread nD τ).loc main_arg4) := by after_results_simp
theorem arg5_5 : W5 m ρ c (Proc.devRef .tc main_arg5) = m ((c : Thread nD τ).loc main_arg5) := by after_results_simp

/-! ## Between the first and the second launch: layer 1's neighbour sum, and the two reshapes -/

/-- The stretch leaves the first launch's output where it is. -/
theorem h7 : W7 m ρ c (Proc.devRef .tc main_v35) = W6 m ρ c (Proc.devRef .tc main_v35) := by
  after_results_simp

/-- Layer 1's neighbour sum, of the first launch's output. -/
theorem agg7 : W7 m ρ c (Proc.devRef .tc main_v48) = agg1 (F := F) (W6 m ρ c (Proc.devRef .tc main_v35)) (m ((c : Thread nD τ).loc main_arg1)) := by
  after_results_simp
  rw [W6_of_ne m ρ c main_v3 (by decide), W6_of_ne m ρ c main_v1 (by decide), W6_of_ne m ρ c main_v31 (by decide),
    tgt5, src5, coef5]
  rfl

/-- The self-loop weights as a column. -/
theorem sc7 : W7 m ρ c (Proc.devRef .tc main_v49) = shapeCast S100000x1 (selfc (F := F) (m ((c : Thread nD τ).loc main_arg1))) shapeCasts_S100000_S100000x1 := by
  after_results_simp
  rw [W6_of_ne m ρ c main_v34 (by decide), selfc5]
  rfl

/-- Layer 1's bias as a row. -/
theorem b7 : W7 m ρ c (Proc.devRef .tc main_v50) = shapeCast S1x64 (m ((c : Thread nD τ).loc main_arg3)) shapeCasts_S64_S1x64 := by
  after_results_simp
  rw [W6_of_ne m ρ c main_arg3 (by decide), arg3_5]
  rfl

/-! ## After the third launch: what the last stretch reads is what the first stretch left -/

theorem arg4_8 : W8 m ρ c (Proc.devRef .tc main_arg4) = m ((c : Thread nD τ).loc main_arg4) := by
  rw [W8_of_ne m ρ c main_arg4 (by decide)]
  after_results_simp
  rw [W6_of_ne m ρ c main_arg4 (by decide), arg4_5]

theorem src9 : W9 m ρ c (Proc.devRef .tc main_v1) = src (F := F) (m ((c : Thread nD τ).loc main_arg1)) := by
  rw [W9_of_ne m ρ c main_v1 (by decide), W8_of_ne m ρ c main_v1 (by decide)]
  after_results_simp
  rw [W6_of_ne m ρ c main_v1 (by decide), src5]

theorem tgt9 : W9 m ρ c (Proc.devRef .tc main_v3) = tgt (F := F) (m ((c : Thread nD τ).loc main_arg1)) := by
  rw [W9_of_ne m ρ c main_v3 (by decide), W8_of_ne m ρ c main_v3 (by decide)]
  after_results_simp
  rw [W6_of_ne m ρ c main_v3 (by decide), tgt5]

theorem coef9 : W9 m ρ c (Proc.devRef .tc main_v31) = coef (F := F) (m ((c : Thread nD τ).loc main_arg1)) := by
  rw [W9_of_ne m ρ c main_v31 (by decide), W8_of_ne m ρ c main_v31 (by decide)]
  after_results_simp
  rw [W6_of_ne m ρ c main_v31 (by decide), coef5]

theorem selfc9 : W9 m ρ c (Proc.devRef .tc main_v34) = selfc (F := F) (m ((c : Thread nD τ).loc main_arg1)) := by
  rw [W9_of_ne m ρ c main_v34 (by decide), W8_of_ne m ρ c main_v34 (by decide)]
  after_results_simp
  rw [W6_of_ne m ρ c main_v34 (by decide), selfc5]

theorem arg5_9 : W9 m ρ c (Proc.devRef .tc main_arg5) = m ((c : Thread nD τ).loc main_arg5) := by
  rw [W9_of_ne m ρ c main_arg5 (by decide), W8_of_ne m ρ c main_arg5 (by decide)]
  after_results_simp
  rw [W6_of_ne m ρ c main_arg5 (by decide), arg5_5]

/-! ## Between the third and the fourth launch: layer 2's neighbour sum, and the two reshapes -/

/-- The stretch leaves the third launch's output where it is. -/
theorem h10 : W10 m ρ c (Proc.devRef .tc main_v52) = W9 m ρ c (Proc.devRef .tc main_v52) := by
  after_results_simp

/-- Layer 2's neighbour sum, of the third launch's output. -/
theorem agg10 : W10 m ρ c (Proc.devRef .tc main_v65) = agg2 (F := F) (W9 m ρ c (Proc.devRef .tc main_v52)) (m ((c : Thread nD τ).loc main_arg1)) := by
  after_results_simp
  rw [tgt9, src9, coef9]
  rfl

/-- The self-loop weights as a column, again. -/
theorem sc10 : W10 m ρ c (Proc.devRef .tc main_v66) = shapeCast S100000x1 (selfc (F := F) (m ((c : Thread nD τ).loc main_arg1))) shapeCasts_S100000_S100000x1 := by
  after_results_simp
  rw [selfc9]
  rfl

/-- Layer 2's bias as a row. -/
theorem b10 : W10 m ρ c (Proc.devRef .tc main_v67) = shapeCast S1x16 (m ((c : Thread nD τ).loc main_arg5)) shapeCasts_S16_S1x16 := by
  after_results_simp
  rw [arg5_9]
  rfl

end Cert.KernelIdeal.HostRead

end
-- ==== Proof.Spec.lean ====
/-
  The graph-convolution network as plain functions of arrays, on the extended reals.

  One layer is  out = act ((agg + h · s) + b)  with  h = x · W  (a matrix product, the contracted axis summed),
  agg the neighbour sum of h (a scatter-add of gathered rows; it is never opened here: both programs apply the same
  host operations to h), s the per-node self-loop coefficient (one number per row) and b the bias (one number per
  column).  Layer 1 has 512 → 64 features and act = max(·, 0); layer 2 has 64 → 16 features and act = the row-wise
  log-softmax  z ↦ (z − M) − log Σⱼ exp(zⱼ − M),  M the row's maximum (the fold of max from −∞).
-/
import Idealize.ShloMosaic.PureOps.Ideal
import Idealize.ShloMosaic.Lib.ValueIdx

noncomputable section

namespace Cert.Gcn

open Idealize.ShloMosaic Idealize.ShloMosaic.ValueIdx

abbrev SNx512 : Shape := ⟨2, ![100000, 512]⟩
abbrev SW1 : Shape := ⟨2, ![512, 64]⟩
abbrev SNx64 : Shape := ⟨2, ![100000, 64]⟩
abbrev SW2 : Shape := ⟨2, ![64, 16]⟩
abbrev SNx16 : Shape := ⟨2, ![100000, 16]⟩
abbrev SN : Shape := ⟨1, ![100000]⟩
abbrev SB1 : Shape := ⟨1, ![64]⟩
abbrev SB2 : Shape := ⟨1, ![16]⟩

/-- Layer 1's linear map: entry (p, q) of x · W is Σₖ x[p, k] · W[k, q], k over the 512 input features. -/
def lin1 (x : FVec Ideal SNx512 .f32) (w : FVec Ideal SW1 .f32) : FVec Ideal SNx64 .f32 :=
  fun i => ∑ k : Fin 512, x (ix2 (i 0 : Fin 100000) k) * w (ix2 k (i 1 : Fin 64))

theorem lin1_apply (x : FVec Ideal SNx512 .f32) (w : FVec Ideal SW1 .f32) (p : Fin 100000) (q : Fin 64) :
    lin1 x w (ix2 p q) = ∑ k : Fin 512, x (ix2 p k) * w (ix2 k q) := rfl

/-- Layer 2's linear map: Σₖ x[p, k] · W[k, q], k over the 64 hidden features. -/
def lin2 (x : FVec Ideal SNx64 .f32) (w : FVec Ideal SW2 .f32) : FVec Ideal SNx16 .f32 :=
  fun i => ∑ k : Fin 64, x (ix2 (i 0 : Fin 100000) k) * w (ix2 k (i 1 : Fin 16))

theorem lin2_apply (x : FVec Ideal SNx64 .f32) (w : FVec Ideal SW2 .f32) (p : Fin 100000) (q : Fin 16) :
    lin2 x w (ix2 p q) = ∑ k : Fin 64, x (ix2 p k) * w (ix2 k q) := rfl

/-- Layer 1 before its activation: (agg + h · s) + b, s read at the row, b at the column. -/
def pre1 (h agg : FVec Ideal SNx64 .f32) (s : FVec Ideal SN .f32) (b : FVec Ideal SB1 .f32) : FVec Ideal SNx64 .f32 :=
  fun i => (agg i + h i * s (ix1 (i 0 : Fin 100000))) + b (ix1 (i 1 : Fin 64))

theorem pre1_apply (h agg : FVec Ideal SNx64 .f32) (s : FVec Ideal SN .f32) (b : FVec Ideal SB1 .f32) (p : Fin 100000) (q : Fin 64) :
    pre1 h agg s b (ix2 p q) = (agg (ix2 p q) + h (ix2 p q) * s (ix1 p)) + b (ix1 q) := rfl

/-- Layer 1: max((agg + h · s) + b, 0), the zero being the f32 word of +0. -/
def act1 (h agg : FVec Ideal SNx64 .f32) (s : FVec Ideal SN .f32) (b : FVec Ideal SB1 .f32) : FVec Ideal SNx64 .f32 :=
  fun i => max (pre1 h agg s b i) (Ideal.ofBits .f32 0x00000000#32)

theorem act1_apply (h agg : FVec Ideal SNx64 .f32) (s : FVec Ideal SN .f32) (b : FVec Ideal SB1 .f32) (p : Fin 100000) (q : Fin 64) :
    act1 h agg s b (ix2 p q) = max ((agg (ix2 p q) + h (ix2 p q) * s (ix1 p)) + b (ix1 q)) (Ideal.ofBits .f32 0x00000000#32) := rfl

/-- Layer 2 before its activation: (agg + h · s) + b. -/
def pre2 (h agg : FVec Ideal SNx16 .f32) (s : FVec Ideal SN .f32) (b : FVec Ideal SB2 .f32) : FVec Ideal SNx16 .f32 :=
  fun i => (agg i + h i * s (ix1 (i 0 : Fin 100000))) + b (ix1 (i 1 : Fin 16))

theorem pre2_apply (h agg : FVec Ideal SNx16 .f32) (s : FVec Ideal SN .f32) (b : FVec Ideal SB2 .f32) (p : Fin 100000) (q : Fin 16) :
    pre2 h agg s b (ix2 p q) = (agg (ix2 p q) + h (ix2 p q) * s (ix1 p)) + b (ix1 q) := rfl

/-- A row's maximum: the fold of max over the row's 16 entries from the f32 word of −∞. -/
def rowMax (z : FVec Ideal SNx16 .f32) (p : Fin 100000) : EReal :=
  (Finset.univ : Finset (Fin 16)).fold max (Ideal.ofBits .f32 0xFF800000#32) (fun j => z (ix2 p j))

/-- The row-wise log-softmax: (z − M) − log Σⱼ exp(zⱼ − M), M the row's maximum. -/
def lsm (z : FVec Ideal SNx16 .f32) : FVec Ideal SNx16 .f32 :=
  fun i => (z i - rowMax z (i 0 : Fin 100000))
    - Ideal.log (∑ j : Fin 16, Ideal.exp (z (ix2 (i 0 : Fin 100000) j) - rowMax z (i 0 : Fin 100000)))

theorem lsm_apply (z : FVec Ideal SNx16 .f32) (p : Fin 100000) (q : Fin 16) :
    lsm z (ix2 p q) = (z (ix2 p q) - rowMax z p) - Ideal.log (∑ j : Fin 16, Ideal.exp (z (ix2 p j) - rowMax z p)) := rfl

end Cert.Gcn

end
-- ==== Proof.Reg0.lean ====
/-
  The first launch (x · W₁ in 20 row blocks of 5000): its output array after the last grid point is the whole
  matrix product of the two arrays it was entered with.
-/
import proofs.«154826_j3015067042303_2_alg».proof.Proof.Gen.KernelIdeal.Frame
import proofs.«154826_j3015067042303_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

-- the buffer contents of core c when the launch is entered
variable (V : (c : Dev nD) → (b : Ref sig .tc) → Buf (Elt Ideal) ((c : Thread nD τ).loc b))

theorem hz : (![0, 0] : Fin 2 → Nat) = fun _ => 0 := funext fun a => by fin_cases a <;> rfl

/-- The body's payload at (r, q): row r of the first block contracted with column q of the second, the 512 products
    summed (the format changes are the identity on extended reals and the accumulator is zero). -/
theorem pay_apply (x0 : Vec Ideal S5000x512 .f32) (x1 : Vec Ideal S512x64 .f32) (r : Fin 5000) (q : Fin 64) :
    k0_pay1 (F := Ideal) x0 x1 (ix2 r q) = ∑ k : Fin 512, x0 (ix2 r k) * x1 (ix2 k q) := by
  unfold k0_pay1
  refine (Ideal.matmul_constant_zero_apply dot_S5000x512_S512x64_S5000x64_1_0_0_1_n_n none _ _ (ix2 r q)).trans ?_
  rw [← Equiv.sum_comp (contrEquiv1 dot_S5000x512_S512x64_S5000x64_1_0_0_1_n_n 512 rfl rfl).symm]
  refine Finset.sum_congr rfl fun k _ => ?_
  have hk := contrEquiv1_symm_val dot_S5000x512_S512x64_S5000x64_1_0_0_1_n_n 512 rfl rfl k
  -- the left operand is read at (r, k): axis 0 is the output's row, axis 1 the contraction position
  have el : dot_S5000x512_S512x64_S5000x64_1_0_0_1_n_n.lhsIdx (ix2 r q) ((contrEquiv1 dot_S5000x512_S512x64_S5000x64_1_0_0_1_n_n 512 rfl rfl).symm k) = ix2 r k :=
    funext fun a => Fin.ext (by
      match a with
      | ⟨0, _⟩ =>
        show (dot_S5000x512_S512x64_S5000x64_1_0_0_1_n_n.lhsIdx (ix2 r q) _ 0).val = r.val
        unfold DotDims.lhsIdx
        rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
        rfl
      | ⟨1, _⟩ => exact (dot_S5000x512_S512x64_S5000x64_1_0_0_1_n_n.lhsIdx_val_of_single rfl (ix2 r q) _).trans hk)
  -- the right operand is read at (k, q): axis 0 is the contraction position, axis 1 the output's column
  have er : dot_S5000x512_S512x64_S5000x64_1_0_0_1_n_n.rhsIdx (ix2 r q) ((contrEquiv1 dot_S5000x512_S512x64_S5000x64_1_0_0_1_n_n 512 rfl rfl).symm k) = ix2 k q :=
    funext fun a => Fin.ext (by
      match a with
      | ⟨0, _⟩ => exact (dot_S5000x512_S512x64_S5000x64_1_0_0_1_n_n.rhsIdx_val_of_single rfl (ix2 r q) _).trans hk
      | ⟨1, _⟩ =>
        show (dot_S5000x512_S512x64_S5000x64_1_0_0_1_n_n.rhsIdx (ix2 r q) _ 1).val = q.val
        unfold DotDims.rhsIdx
        rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
        rfl)
  rw [el, er]
  rfl

/-- The printed index maps, decided over the grid: the row-blocked windows (the left operand and the output) sit at
    block (t, 0) at point t, and the right operand is fetched whole (block (0, 0)) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val ≤ 19 :=
  (by decide +kernel : ∀ t : Fin grid0.N, _)

/-- The left operand's block at point t is rows 5000·t … 5000·t + 4999 of its array, every column. -/
theorem iblk_lhs_apply (c : Dev nD) (t : Fin cfg0.N) (r : Fin 5000) (k : Fin 512) (i : S100000x512.Idx)
    (h0 : (i 0).val = 5000 * t.val + r.val) (h1 : (i 1).val = k.val) :
    (iblk0 V c 0 t : Vec Ideal S5000x512 .f32) (ix2 r k) = (V c main_arg0 : S100000x512.Idx → Elt Ideal .f32) i := by
  obtain ⟨e0, e1, -, -, -, -, -⟩ := idx_facts t
  unfold iblk0
  rw [View.read_apply]
  show V c main_arg0 _ = V c main_arg0 _
  refine congrArg _ ?_
  funext a
  apply Fin.ext
  match a with
  | ⟨0, _⟩ => show win0_0.index t 0 * 5000 + 1 * r.val = (i 0).val; rw [e0, h0]; omega
  | ⟨1, _⟩ => show win0_0.index t 1 * 512 + 1 * k.val = (i 1).val; rw [e1, h1]; omega

/-- The right operand's block at every point is its whole array. -/
theorem iblk_rhs_apply (c : Dev nD) (t : Fin cfg0.N) (k : Fin 512) (q : Fin 64) :
    (iblk0 V c 1 t : Vec Ideal S512x64 .f32) (ix2 k q) = (V c main_arg2 : S512x64.Idx → Elt Ideal .f32) (ix2 k q) := by
  obtain ⟨-, -, e2, e3, -, -, -⟩ := idx_facts t
  unfold iblk0
  rw [View.read_apply]
  show V c main_arg2 _ = V c main_arg2 _
  refine congrArg _ ?_
  funext a
  apply Fin.ext
  match a with
  | ⟨0, _⟩ => show win0_1.index t 0 * 512 + 1 * k.val = k.val; rw [e2]; omega
  | ⟨1, _⟩ => show win0_1.index t 1 * 64 + 1 * q.val = q.val; rw [e3]; omega

/-- What point t writes back is block t of the matrix product of the two arrays: its entry (r, q) sums, over k, row
    5000·t + r of the left array at k times the right array at (k, q). -/
theorem flushed_eq (c : Dev nD) (t : Fin cfg0.N) :
    (dat0 (F := Ideal) V c).flushed 2 t
      = ((cfg0.win 2).blk t).view.read (Elt Ideal) (Cert.Gcn.lin1 (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨-, -, -, -, e4, e5, e6⟩ := idx_facts t
  funext j
  obtain ⟨r, q, rfl⟩ : ∃ (r : Fin 5000) (q : Fin 64), j = ix2 r q := ⟨j 0, j 1, eq_ix2 j⟩
  refine (pay_apply _ _ r q).trans ?_
  rw [View.read_apply]
  show _ = Cert.Gcn.lin1 (V c main_arg0) (V c main_arg2) (((cfg0.win 2).blk t).view.emb (ix2 r q))
  -- the block's entry (r, q) is the array's entry (5000·t + r, q)
  have hq : win0_2.index t 1 * 64 + 1 * q.val < 64 := by rw [e5]; have := q.isLt; omega
  have hr : win0_2.index t 0 * 5000 + 1 * r.val < 100000 := by rw [e4]; have := r.isLt; omega
  have hemb : ((cfg0.win 2).blk t).view.emb (ix2 r q)
      = (ix2 (⟨win0_2.index t 0 * 5000 + 1 * r.val, hr⟩ : Fin 100000) (⟨win0_2.index t 1 * 64 + 1 * q.val, hq⟩ : Fin 64) : S100000x64.Idx) := by
    funext a
    apply Fin.ext
    match a with
    | ⟨0, _⟩ => rfl
    | ⟨1, _⟩ => rfl
  rw [hemb, Cert.Gcn.lin1_apply]
  refine Finset.sum_congr rfl fun k _ => ?_
  rw [iblk_lhs_apply V c t r k (ix2 (⟨win0_2.index t 0 * 5000 + 1 * r.val, hr⟩ : Fin 100000) k) (by show win0_2.index t 0 * 5000 + 1 * r.val = _; rw [e4]; omega) rfl,
    iblk_rhs_apply V c t k q]
  refine congrArg _ (congrArg _ ?_)
  funext a
  apply Fin.ext
  match a with
  | ⟨0, _⟩ => rfl
  | ⟨1, _⟩ => show q.val = win0_2.index t 1 * 64 + 1 * q.val; rw [e5]; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- The 20 row blocks cover the 100000 rows: row p is in the block of point p / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 5000, by show (i 0).val / 5000 < 20; omega⟩, flush0_2 _, ?_⟩
  obtain ⟨-, -, -, -, e4, e5, -⟩ := idx_facts ⟨(i 0).val / 5000, by show (i 0).val / 5000 < 20; omega⟩
  rw [mem_blk]
  intro a
  match a with
  | ⟨0, _⟩ =>
    show win0_2.index _ 0 * 5000 ≤ (i 0).val ∧ (i 0).val < win0_2.index _ 0 * 5000 + 5000
    rw [e4]
    show (i 0).val / 5000 * 5000 ≤ (i 0).val ∧ (i 0).val < (i 0).val / 5000 * 5000 + 5000
    omega
  | ⟨1, _⟩ =>
    show win0_2.index _ 1 * 64 ≤ (i 1).val ∧ (i 1).val < win0_2.index _ 1 * 64 + 64
    rw [e5]
    omega

/-- After the launch the output array is x · W₁: entry (p, q) is Σₖ x[p, k] · W₁[k, q]. -/
theorem final (c : Dev nD) :
    (dat0 (F := Ideal) V c).arrAt 2 cfg0.N = Cert.Gcn.lin1 (V c main_arg0) (V c main_arg2) :=
  (dat0 (F := Ideal) V c).arrAt_eq_of_cover 2 (Cert.Gcn.lin1 (V c main_arg0) (V c main_arg2)) (fun t _ => flushed_eq V c t) cover

end Cert.KernelIdeal.Reg0

end
-- ==== Proof.LibColumn.lean ====
/-
  A vector kept as a column and spread over the columns of a matrix, read at an index: the two layout steps a
  `keepdims` row reduction prints in a kernel body — an [a] vector cast to [a, 1], and an [a, 1] column broadcast to
  [a, b] — and their composite, which at (p, c) is the vector's entry p whatever the column c. Any extents, any
  element type.
-/
import Idealize.ShloMosaic.Lib.Pipeline.Value
import Idealize.ShloMosaic.Lib.ValueIdx

namespace Cert.Lib.Column

open Idealize.ShloMosaic Idealize.ShloMosaic.ValueIdx

variable {α : Type}

/-- An [a] vector cast to the column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The composite: an [a] vector kept as a column and spread over b columns reads, at (p, c), the vector at p. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.Lib.Column
-- ==== Proof.Reg1.lean ====
/-
  The second launch (layer 1's epilogue in 20 row blocks of 5000): max((agg + h · s) + b, 0), the self-loop
  coefficient s entered as a column [N, 1] and the bias b as a row [1, 64], both reshapes of vectors.
-/
import proofs.«154826_j3015067042303_2_alg».proof.Proof.Gen.KernelIdeal.Frame
import proofs.«154826_j3015067042303_2_alg».proof.Proof.Spec
import proofs.«154826_j3015067042303_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

-- the buffer contents of core c when the launch is entered
variable (V : (c : Dev nD) → (b : Ref sig .tc) → Buf (Elt Ideal) ((c : Thread nD τ).loc b))

/-- The zero offsets of a whole-block rectangle, however spelt. -/
theorem hz : (![0, 0] : Fin 2 → Nat) = fun _ => 0 := funext fun a => by fin_cases a <;> rfl

/-- The body's arithmetic at entry (r, q) of a block: the aggregate plus the row's own features times the row's
    coefficient (the column block's one entry of row r), plus the bias of column q (the row block's entry of column q),
    clipped below at +0. -/
theorem pay_apply (x0 x1 : Vec Ideal S5000x64 .f32) (x2 : Vec Ideal S5000x1 .f32) (x3 : Vec Ideal S1x64 .f32)
    (r : Fin 5000) (q : Fin 64) :
    k1_pay1 (F := Ideal) x0 x1 x2 x3 (ix2 r q)
      = max ((x1 (ix2 r q) + x0 (ix2 r q) * x2 (ix2 r (0 : Fin 1))) + x3 (ix2 (0 : Fin 1) q))
          (Ideal.ofBits .f32 0x00000000#32) := by
  unfold k1_pay1
  simp only [shapeCast_self]
  rw [maximumf_apply, addf_apply, addf_apply, mulf_apply, broadcast_apply,
    Cert.Lib.Column.broadcastTo_a1_ab_apply, broadcastTo_1b_ab_apply]
  rfl

/-- The windows' index maps over the grid: the four row-blocked windows sit at the point's row block, column block 0;
    the bias row is fetched whole. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N, _)

/-- Entry (r, q) of the features' block at point t is the features' array at row 5000 t + r, column q. -/
theorem feat_blk_apply (c : Dev nD) (t : Fin cfg1.N) (r : Fin 5000) (q : Fin 64) (h : 5000 * t.val + r.val < 100000) :
    (iblk1 V c 0 t : Vec Ideal S5000x64 .f32) (ix2 r q)
      = (V c main_v35 : FVec Ideal S100000x64 .f32) (ix2 (⟨5000 * t.val + r.val, h⟩ : Fin 100000) q) := by
  unfold iblk1
  rw [View.read_apply]
  show V c main_v35 _ = V c main_v35 _
  refine congrArg _ ?_
  funext a; apply Fin.ext
  match a with
  | ⟨0, _⟩ => show win1_0.index t 0 * 5000 + 1 * r.val = 5000 * t.val + r.val; rw [(idx_facts t).1.1]; omega
  | ⟨1, _⟩ => show win1_0.index t 1 * 64 + 1 * q.val = q.val; rw [(idx_facts t).1.2]; omega

/-- Entry (r, q) of the aggregate's block at point t is the aggregate's array at row 5000 t + r, column q. -/
theorem agg_blk_apply (c : Dev nD) (t : Fin cfg1.N) (r : Fin 5000) (q : Fin 64) (h : 5000 * t.val + r.val < 100000) :
    (iblk1 V c 1 t : Vec Ideal S5000x64 .f32) (ix2 r q)
      = (V c main_v48 : FVec Ideal S100000x64 .f32) (ix2 (⟨5000 * t.val + r.val, h⟩ : Fin 100000) q) := by
  unfold iblk1
  rw [View.read_apply]
  show V c main_v48 _ = V c main_v48 _
  refine congrArg _ ?_
  funext a; apply Fin.ext
  match a with
  | ⟨0, _⟩ => show win1_1.index t 0 * 5000 + 1 * r.val = 5000 * t.val + r.val; rw [(idx_facts t).2.1.1]; omega
  | ⟨1, _⟩ => show win1_1.index t 1 * 64 + 1 * q.val = q.val; rw [(idx_facts t).2.1.2]; omega

/-- The one entry of row r of the coefficient column's block at point t is the coefficient of row 5000 t + r, when the
    column array is the reshaped vector s. -/
theorem coef_blk_apply (c : Dev nD) (s : FVec Ideal S100000 .f32)
    (hs : V c main_v49 = shapeCast S100000x1 s shapeCasts_S100000_S100000x1)
    (t : Fin cfg1.N) (r : Fin 5000) (h : 5000 * t.val + r.val < 100000) :
    (iblk1 V c 2 t : Vec Ideal S5000x1 .f32) (ix2 r (0 : Fin 1)) = s (ix1 (⟨5000 * t.val + r.val, h⟩ : Fin 100000)) := by
  have e : (iblk1 V c 2 t : Vec Ideal S5000x1 .f32) (ix2 r (0 : Fin 1))
      = (V c main_v49 : FVec Ideal S100000x1 .f32) (ix2 (⟨5000 * t.val + r.val, h⟩ : Fin 100000) (0 : Fin 1)) := by
    unfold iblk1
    rw [View.read_apply]
    show V c main_v49 _ = V c main_v49 _
    refine congrArg _ ?_
    funext a; apply Fin.ext
    match a with
    | ⟨0, _⟩ => show win1_2.index t 0 * 5000 + 1 * r.val = 5000 * t.val + r.val; rw [(idx_facts t).2.2.1.1]; omega
    | ⟨1, _⟩ => show win1_2.index t 1 * 1 + 1 * 0 = 0; rw [(idx_facts t).2.2.1.2]
  rw [e, hs]
  exact Cert.Lib.Column.shapeCast_a_a1_apply s _ _ _

/-- Entry q of the bias row's block (the whole row, at every point) is the bias of column q, when the row array is the
    reshaped vector b. -/
theorem bias_blk_apply (c : Dev nD) (b : FVec Ideal S64 .f32)
    (hb : V c main_v50 = shapeCast S1x64 b shapeCasts_S64_S1x64)
    (t : Fin cfg1.N) (q : Fin 64) :
    (iblk1 V c 3 t : Vec Ideal S1x64 .f32) (ix2 (0 : Fin 1) q) = b (ix1 q) := by
  have e : (iblk1 V c 3 t : Vec Ideal S1x64 .f32) (ix2 (0 : Fin 1) q)
      = (V c main_v50 : FVec Ideal S1x64 .f32) (ix2 (0 : Fin 1) q) := by
    unfold iblk1
    rw [View.read_apply]
    show V c main_v50 _ = V c main_v50 _
    refine congrArg _ ?_
    funext a; apply Fin.ext
    match a with
    | ⟨0, _⟩ => show win1_3.index t 0 * 1 + 1 * 0 = 0; rw [(idx_facts t).2.2.2.1.1]
    | ⟨1, _⟩ => show win1_3.index t 1 * 64 + 1 * q.val = q.val; rw [(idx_facts t).2.2.2.1.2]; omega
  rw [e, hb]
  exact shapeCast_a_1a_apply b _ _ _

/-- Entry (r, q) of the output's block at point t sits in the output array at row 5000 t + r, column q. -/
theorem out_blk_emb (t : Fin cfg1.N) (r : Fin 5000) (q : Fin 64) (h : 5000 * t.val + r.val < 100000) :
    ((cfg1.win 4).blk t).view.emb (ix2 r q) = (ix2 (⟨5000 * t.val + r.val, h⟩ : Fin 100000) q : S100000x64.Idx) := by
  funext a; apply Fin.ext
  match a with
  | ⟨0, _⟩ => show win1_4.index t 0 * 5000 + 1 * r.val = 5000 * t.val + r.val; rw [(idx_facts t).2.2.2.2.1]; omega
  | ⟨1, _⟩ => show win1_4.index t 1 * 64 + 1 * q.val = q.val; rw [(idx_facts t).2.2.2.2.2]; omega

/-- What point t writes back is block t of layer 1's activation of the arrays the launch was entered with. -/
theorem flushed_eq (c : Dev nD) (s : FVec Ideal S100000 .f32) (b : FVec Ideal S64 .f32)
    (hs : V c main_v49 = shapeCast S100000x1 s shapeCasts_S100000_S100000x1)
    (hb : V c main_v50 = shapeCast S1x64 b shapeCasts_S64_S1x64) (t : Fin cfg1.N) :
    (dat1 (F := Ideal) V c).flushed 4 t
      = ((cfg1.win 4).blk t).view.read (Elt Ideal) (Cert.Gcn.act1 (V c main_v35) (V c main_v48) s b) := by
  show (cfg1.win 4).cut (grid1.coords t) ((dat1 (F := Ideal) V c).after 4 t) = _
  rw [after1_4]
  unfold out1_4
  rw [View.canon_unit_zero hz]
  simp only [View.ld_unit_zero (S := S5000x64) hz, View.ld_unit_zero (S := S5000x1) hz, View.ld_unit_zero (S := S1x64) hz]
  funext j
  obtain ⟨r, q, rfl⟩ : ∃ (r : Fin 5000) (q : Fin 64), j = ix2 r q := ⟨j 0, j 1, eq_ix2 j⟩
  have ht : t.val < 20 := t.isLt
  have h : 5000 * t.val + r.val < 100000 := by have := r.isLt; omega
  show k1_pay1 (F := Ideal) (iblk1 V c 0 t) (iblk1 V c 1 t) (iblk1 V c 2 t) (iblk1 V c 3 t) (ix2 r q)
    = Cert.Gcn.act1 (V c main_v35) (V c main_v48) s b (((cfg1.win 4).blk t).view.emb (ix2 r q))
  rw [pay_apply, out_blk_emb t r q h, Cert.Gcn.act1_apply, feat_blk_apply V c t r q h, agg_blk_apply V c t r q h,
    coef_blk_apply V c s hs t r h, bias_blk_apply V c b hb t q]

/-- An index of the output array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v51).slice (win1_4.rect t)).set ↔ _
  rw [View.set_slice_whole, Rect.mem_set_unit]
  exact Iff.rfl

/-- Every index of the output array is in some point's block: row p is in the block of point p / 5000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 5000 < cfg1.N := by show _ < 20; omega
  obtain ⟨-, -, -, -, e0, e1⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ 0 * 5000 ≤ (i 0).val
      ∧ (i 0).val < win1_4.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_4.index ⟨(i 0).val / 5000, hlt⟩ 1 * 64 ≤ (i 1).val
      ∧ (i 1).val < win1_4.index ⟨(i 0).val / 5000, hlt⟩ 1 * 64 + 64
    rw [e1]
    omega

/-- After the launch the output array is layer 1's activation of the arrays it was entered with, when the column
    window holds a reshaped vector s and the row window a reshaped vector b. -/
theorem final (c : Dev nD) (s : FVec Ideal S100000 .f32) (b : FVec Ideal S64 .f32)
    (hs : V c main_v49 = shapeCast S100000x1 s shapeCasts_S100000_S100000x1)
    (hb : V c main_v50 = shapeCast S1x64 b shapeCasts_S64_S1x64) :
    (dat1 (F := Ideal) V c).arrAt 4 cfg1.N = Cert.Gcn.act1 (V c main_v35) (V c main_v48) s b := by
  exact (dat1 (F := Ideal) V c).arrAt_eq_of_cover 4 (Cert.Gcn.act1 (V c main_v35) (V c main_v48) s b)
    (fun t _ => flushed_eq V c s b hs hb t) cover

end Cert.KernelIdeal.Reg1

end
-- ==== Proof.Reg2.lean ====
/-
  The third launch (h · W₂ in 20 row blocks of 5000): its output array after the last grid point is the whole
  matrix product of the two arrays it was entered with.
-/
import proofs.«154826_j3015067042303_2_alg».proof.Proof.Gen.KernelIdeal.Frame
import proofs.«154826_j3015067042303_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat)

-- the buffer contents of core c when the launch is entered
variable (V : (c : Dev nD) → (b : Ref sig .tc) → Buf (Elt Ideal) ((c : Thread nD τ).loc b))

theorem hz : (![0, 0] : Fin 2 → Nat) = fun _ => 0 := funext fun a => by fin_cases a <;> rfl

/-- The body's payload at (r, q): row r of the first block contracted with column q of the second, the 64 products
    summed (the cast to the same shape and the format changes are the identity on extended reals and the accumulator is zero). -/
theorem pay_apply (x0 : Vec Ideal S5000x64 .f32) (x1 : Vec Ideal S64x16 .f32) (r : Fin 5000) (q : Fin 16) :
    k2_pay1 (F := Ideal) x0 x1 (ix2 r q) = ∑ k : Fin 64, x0 (ix2 r k) * x1 (ix2 k q) := by
  unfold k2_pay1
  rw [shapeCast_self]
  refine (Ideal.matmul_constant_zero_apply dot_S5000x64_S64x16_S5000x16_1_0_0_1_n_n none _ _ (ix2 r q)).trans ?_
  rw [← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  -- the left operand is read at (r, k): axis 0 is the output's row, axis 1 the contraction position
  have el : dot_S5000x64_S64x16_S5000x16_1_0_0_1_n_n.lhsIdx (ix2 r q) ((contrEquiv1 dot_S5000x64_S64x16_S5000x16_1_0_0_1_n_n 64 rfl rfl).symm k) = ix2 r k :=
    funext fun a => Fin.ext (by
      match a with
      | ⟨0, _⟩ =>
        show (dot_S5000x64_S64x16_S5000x16_1_0_0_1_n_n.lhsIdx (ix2 r q) _ 0).val = r.val
        unfold DotDims.lhsIdx
        rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
        rfl
      | ⟨1, _⟩ => exact (dot_S5000x64_S64x16_S5000x16_1_0_0_1_n_n.lhsIdx_val_of_single rfl (ix2 r q) _).trans hk)
  -- the right operand is read at (k, q): axis 0 is the contraction position, axis 1 the output's column
  have er : dot_S5000x64_S64x16_S5000x16_1_0_0_1_n_n.rhsIdx (ix2 r q) ((contrEquiv1 dot_S5000x64_S64x16_S5000x16_1_0_0_1_n_n 64 rfl rfl).symm k) = ix2 k q :=
    funext fun a => Fin.ext (by
      match a with
      | ⟨0, _⟩ => exact (dot_S5000x64_S64x16_S5000x16_1_0_0_1_n_n.rhsIdx_val_of_single rfl (ix2 r q) _).trans hk
      | ⟨1, _⟩ =>
        show (dot_S5000x64_S64x16_S5000x16_1_0_0_1_n_n.rhsIdx (ix2 r q) _ 1).val = q.val
        unfold DotDims.rhsIdx
        rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
        rfl)
  rw [el, er]
  rfl

/-- The printed index maps, decided over the grid: the row-blocked windows (the left operand and the output) sit at
    block (t, 0) at point t, and the right operand is fetched whole (block (0, 0)) at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val ≤ 19 :=
  (by decide +kernel : ∀ t : Fin grid2.N, _)

/-- The left operand's block at point t is rows 5000·t … 5000·t + 4999 of its array, every column. -/
theorem iblk_lhs_apply (c : Dev nD) (t : Fin cfg2.N) (r : Fin 5000) (k : Fin 64) (i : S100000x64.Idx)
    (h0 : (i 0).val = 5000 * t.val + r.val) (h1 : (i 1).val = k.val) :
    (iblk2 V c 0 t : Vec Ideal S5000x64 .f32) (ix2 r k) = (V c main_v51 : S100000x64.Idx → Elt Ideal .f32) i := by
  obtain ⟨e0, e1, -, -, -, -, -⟩ := idx_facts t
  unfold iblk2
  rw [View.read_apply]
  show V c main_v51 _ = V c main_v51 _
  refine congrArg _ ?_
  funext a
  apply Fin.ext
  match a with
  | ⟨0, _⟩ => show win2_0.index t 0 * 5000 + 1 * r.val = (i 0).val; rw [e0, h0]; omega
  | ⟨1, _⟩ => show win2_0.index t 1 * 64 + 1 * k.val = (i 1).val; rw [e1, h1]; omega

/-- The right operand's block at every point is its whole array. -/
theorem iblk_rhs_apply (c : Dev nD) (t : Fin cfg2.N) (k : Fin 64) (q : Fin 16) :
    (iblk2 V c 1 t : Vec Ideal S64x16 .f32) (ix2 k q) = (V c main_arg4 : S64x16.Idx → Elt Ideal .f32) (ix2 k q) := by
  obtain ⟨-, -, e2, e3, -, -, -⟩ := idx_facts t
  unfold iblk2
  rw [View.read_apply]
  show V c main_arg4 _ = V c main_arg4 _
  refine congrArg _ ?_
  funext a
  apply Fin.ext
  match a with
  | ⟨0, _⟩ => show win2_1.index t 0 * 64 + 1 * k.val = k.val; rw [e2]; omega
  | ⟨1, _⟩ => show win2_1.index t 1 * 16 + 1 * q.val = q.val; rw [e3]; omega

/-- What point t writes back is block t of the matrix product of the two arrays: its entry (r, q) sums, over k, row
    5000·t + r of the left array at k times the right array at (k, q). -/
theorem flushed_eq (c : Dev nD) (t : Fin cfg2.N) :
    (dat2 (F := Ideal) V c).flushed 2 t
      = ((cfg2.win 2).blk t).view.read (Elt Ideal) (Cert.Gcn.lin2 (V c main_v51) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x16) hz]
  obtain ⟨-, -, -, -, e4, e5, e6⟩ := idx_facts t
  funext j
  obtain ⟨r, q, rfl⟩ : ∃ (r : Fin 5000) (q : Fin 16), j = ix2 r q := ⟨j 0, j 1, eq_ix2 j⟩
  refine (pay_apply _ _ r q).trans ?_
  rw [View.read_apply]
  show _ = Cert.Gcn.lin2 (V c main_v51) (V c main_arg4) (((cfg2.win 2).blk t).view.emb (ix2 r q))
  -- the block's entry (r, q) is the array's entry (5000·t + r, q)
  have hq : win2_2.index t 1 * 16 + 1 * q.val < 16 := by rw [e5]; have := q.isLt; omega
  have hr : win2_2.index t 0 * 5000 + 1 * r.val < 100000 := by rw [e4]; have := r.isLt; omega
  have hemb : ((cfg2.win 2).blk t).view.emb (ix2 r q)
      = (ix2 (⟨win2_2.index t 0 * 5000 + 1 * r.val, hr⟩ : Fin 100000) (⟨win2_2.index t 1 * 16 + 1 * q.val, hq⟩ : Fin 16) : S100000x16.Idx) := by
    funext a
    apply Fin.ext
    match a with
    | ⟨0, _⟩ => rfl
    | ⟨1, _⟩ => rfl
  rw [hemb, Cert.Gcn.lin2_apply]
  refine Finset.sum_congr rfl fun k _ => ?_
  rw [iblk_lhs_apply V c t r k (ix2 (⟨win2_2.index t 0 * 5000 + 1 * r.val, hr⟩ : Fin 100000) k) (by show win2_2.index t 0 * 5000 + 1 * r.val = _; rw [e4]; omega) rfl,
    iblk_rhs_apply V c t k q]
  refine congrArg _ (congrArg _ ?_)
  funext a
  apply Fin.ext
  match a with
  | ⟨0, _⟩ => rfl
  | ⟨1, _⟩ => show q.val = win2_2.index t 1 * 16 + 1 * q.val; rw [e5]; omega

/-- An index of the output array is in point t's block iff each coordinate is in the block's range on its axis. -/
theorem mem_blk (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v52).slice (win2_2.rect t)).set ↔ _
  rw [View.set_slice_whole, Rect.mem_set_unit]
  exact Iff.rfl

/-- The 20 row blocks cover the 100000 rows: row p is in the block of point p / 5000. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  refine ⟨⟨(i 0).val / 5000, by show (i 0).val / 5000 < 20; omega⟩, flush2_2 _, ?_⟩
  obtain ⟨-, -, -, -, e4, e5, -⟩ := idx_facts ⟨(i 0).val / 5000, by show (i 0).val / 5000 < 20; omega⟩
  rw [mem_blk]
  intro a
  match a with
  | ⟨0, _⟩ =>
    show win2_2.index _ 0 * 5000 ≤ (i 0).val ∧ (i 0).val < win2_2.index _ 0 * 5000 + 5000
    rw [e4]
    show (i 0).val / 5000 * 5000 ≤ (i 0).val ∧ (i 0).val < (i 0).val / 5000 * 5000 + 5000
    omega
  | ⟨1, _⟩ =>
    show win2_2.index _ 1 * 16 ≤ (i 1).val ∧ (i 1).val < win2_2.index _ 1 * 16 + 16
    rw [e5]
    omega

/-- After the launch the output array is h · W₂: entry (p, q) is Σₖ h[p, k] · W₂[k, q]. -/
theorem final (c : Dev nD) :
    (dat2 (F := Ideal) V c).arrAt 2 cfg2.N = Cert.Gcn.lin2 (V c main_v51) (V c main_arg4) :=
  (dat2 (F := Ideal) V c).arrAt_eq_of_cover 2 (Cert.Gcn.lin2 (V c main_v51) (V c main_arg4)) (fun t _ => flushed_eq V c t) cover

end Cert.KernelIdeal.Reg2

end
-- ==== Proof.Reg3.lean ====
/-
  The fourth launch (layer 2's epilogue in 50 row blocks of 2000): the row-wise log-softmax of (agg + h · s) + b,
  s entered as a column [N, 1] and b as a row [1, 16], both reshapes of vectors.
-/
import proofs.«154826_j3015067042303_2_alg».proof.Proof.Gen.KernelIdeal.Frame
import proofs.«154826_j3015067042303_2_alg».proof.Proof.Spec
import proofs.«154826_j3015067042303_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.SL.Sem Idealize.ShloMosaic.ValueIdx
open Idealize.ShloMosaic.Pipeline (Dat)

/-! ## The payload at an index -/

/-- Layer 2's pre-activation on a block: (agg + h · s) + b, s read in the column block at the row, b in the row
    block at the column. -/
def zblk (x0 x1 : Vec Ideal S2000x16 .f32) (x2 : Vec Ideal S2000x1 .f32) (x3 : Vec Ideal S1x16 .f32) :
    FVec Ideal S2000x16 .f32 :=
  fun i => (x1 i + x0 i * x2 (ix2 (i 0 : Fin 2000) (0 : Fin 1))) + x3 (ix2 (0 : Fin 1) (i 1 : Fin 16))

theorem zblk_apply (x0 x1 : Vec Ideal S2000x16 .f32) (x2 : Vec Ideal S2000x1 .f32) (x3 : Vec Ideal S1x16 .f32)
    (r : Fin 2000) (q : Fin 16) :
    zblk x0 x1 x2 x3 (ix2 r q) = (x1 (ix2 r q) + x0 (ix2 r q) * x2 (ix2 r (0 : Fin 1))) + x3 (ix2 (0 : Fin 1) q) := rfl

/-- A block row's maximum: the fold of max over the row's 16 entries from −∞. -/
def blkMax (z : FVec Ideal S2000x16 .f32) (r : Fin 2000) : EReal :=
  (Finset.univ : Finset (Fin 16)).fold max (Ideal.ofBits .f32 0xFF800000#32) (fun k => z (ix2 r k))

/-- The row-wise log-softmax of a block, as the body prints it: the lane maximum kept as a column and spread over
    the lanes, subtracted; the lane sum of the exponentials kept as a column, its logarithm spread and subtracted. -/
def lsmBody (z : FVec Ideal S2000x16 .f32) : FVec Ideal S2000x16 .f32 :=
  subf (subf z (broadcastTo S2000x16 (shapeCast S2000x1 (multiReduction (F := Ideal) .maximumf [1] S2000 z 0xFF800000#32 reduces_S2000x16_S2000 (.inl rfl) rfl) shapeCasts_S2000_S2000x1) broadcasts_S2000x1_S2000x16))
    (broadcastTo S2000x16 (log (shapeCast S2000x1 (multiReduction (F := Ideal) .add [1] S2000 (exp (subf z (broadcastTo S2000x16 (shapeCast S2000x1 (multiReduction (F := Ideal) .maximumf [1] S2000 z 0xFF800000#32 reduces_S2000x16_S2000 (.inl rfl) rfl) shapeCasts_S2000_S2000x1) broadcasts_S2000x1_S2000x16))) 0x00000000#32 reduces_S2000x16_S2000 (.inl rfl) rfl) shapeCasts_S2000_S2000x1)) broadcasts_S2000x1_S2000x16)

/-- The reduced index r with lane k put back is (r, k). -/
theorem lift_row (r : Fin 2000) (k : Fin 16) :
    reduces_S2000x16_S2000.lift (ix1 r) k = ix2 r k := by
  funext a
  apply Fin.ext
  match a with
  | ⟨0, _⟩ => rfl
  | ⟨1, _⟩ => rfl

/-- The lane maximum of a block at row r. -/
theorem rowmax_apply (z : FVec Ideal S2000x16 .f32) (r : Fin 2000) :
    multiReduction (F := Ideal) .maximumf [1] S2000 z 0xFF800000#32 reduces_S2000x16_S2000 (.inl rfl) rfl (ix1 r) = blkMax z r := by
  refine (Ideal.multiReduction_maximumf_single z _ reduces_S2000x16_S2000 _ _ (ix1 r)).trans ?_
  unfold blkMax
  refine congrArg (fun f => (Finset.univ : Finset (Fin 16)).fold max (Ideal.ofBits .f32 0xFF800000#32) f) (funext fun k => ?_)
  exact congrArg z (lift_row r k)

/-- The lane sum of a block at row r. -/
theorem rowsum_apply (y : FVec Ideal S2000x16 .f32) (r : Fin 2000) :
    multiReduction (F := Ideal) .add [1] S2000 y 0x00000000#32 reduces_S2000x16_S2000 (.inl rfl) rfl (ix1 r) = ∑ k : Fin 16, y (ix2 r k) := by
  refine (Ideal.multiReduction_add_single y _ reduces_S2000x16_S2000 _ _ (ix1 r)).trans ?_
  exact Finset.sum_congr rfl fun k _ => congrArg y (lift_row r k)

/-- The block's entry less its row's maximum. -/
theorem shifted_apply (z : FVec Ideal S2000x16 .f32) (r : Fin 2000) (q : Fin 16) :
    subf z (broadcastTo S2000x16 (shapeCast S2000x1 (multiReduction (F := Ideal) .maximumf [1] S2000 z 0xFF800000#32 reduces_S2000x16_S2000 (.inl rfl) rfl) shapeCasts_S2000_S2000x1) broadcasts_S2000x1_S2000x16) (ix2 r q)
      = z (ix2 r q) - blkMax z r := by
  rw [subf_apply, Cert.Lib.Column.column_apply, rowmax_apply]

/-- The body's log-softmax at (r, q): (z − M) − log Σₖ exp(zₖ − M) over block row r. -/
theorem lsmBody_apply (z : FVec Ideal S2000x16 .f32) (r : Fin 2000) (q : Fin 16) :
    lsmBody z (ix2 r q) = (z (ix2 r q) - blkMax z r) - Ideal.log (∑ k : Fin 16, Ideal.exp (z (ix2 r k) - blkMax z r)) := by
  unfold lsmBody
  rw [subf_apply, shifted_apply, Cert.Lib.Column.broadcastTo_a1_ab_apply]
  show _ - Ideal.log (shapeCast S2000x1 _ shapeCasts_S2000_S2000x1 (ix2 r (0 : Fin 1))) = _
  rw [Cert.Lib.Column.shapeCast_a_a1_apply, rowsum_apply]
  refine congrArg (fun S => (z (ix2 r q) - blkMax z r) - Ideal.log S) (Finset.sum_congr rfl fun k _ => ?_)
  show Ideal.exp (subf z _ (ix2 r k)) = _
  rw [shifted_apply]

/-- The payload's pre-activation is the block's. -/
theorem pre_eq (x0 x1 : Vec Ideal S2000x16 .f32) (x2 : Vec Ideal S2000x1 .f32) (x3 : Vec Ideal S1x16 .f32) :
    addf (addf (shapeCast S2000x16 x1 shapeCasts_S2000x16_S2000x16) (mulf (shapeCast S2000x16 x0 shapeCasts_S2000x16_S2000x16) (broadcastTo S2000x16 (shapeCast S2000x1 (shapeCast S2000x1 x2 shapeCasts_S2000x1_S2000x1) shapeCasts_S2000x1_S2000x1) broadcasts_S2000x1_S2000x16)))
      (broadcastTo S2000x16 (shapeCast S1x16 (shapeCast S1x16 x3 shapeCasts_S1x16_S1x16) shapeCasts_S1x16_S1x16) broadcasts_S1x16_S2000x16) = zblk x0 x1 x2 x3 := by
  funext i
  obtain ⟨r, q, rfl⟩ : ∃ (r : Fin 2000) (q : Fin 16), i = ix2 r q := ⟨i 0, i 1, eq_ix2 i⟩
  simp only [shapeCast_self]
  rw [addf_apply, addf_apply, mulf_apply, Cert.Lib.Column.broadcastTo_a1_ab_apply, broadcastTo_1b_ab_apply]
  rfl

/-- The body's payload is the row-wise log-softmax of the block's pre-activation. -/
theorem pay_eq (x0 x1 : Vec Ideal S2000x16 .f32) (x2 : Vec Ideal S2000x1 .f32) (x3 : Vec Ideal S1x16 .f32) :
    k3_pay1 x0 x1 x2 x3 = lsmBody (zblk x0 x1 x2 x3) := by
  rw [← pre_eq]
  rfl

-- the buffer contents of core c when the launch is entered
variable (V : (c : Dev nD) → (b : Ref sig .tc) → Buf (Elt Ideal) ((c : Thread nD τ).loc b))

/-! ## The blocks as rows of the arrays -/

theorem hz : (![0, 0] : Fin 2 → Nat) = fun _ => 0 := funext fun a => by fin_cases a <;> rfl

/-- The printed index maps, decided over the grid: the row-blocked windows sit at block row t of their arrays, the
    bias row is fetched whole. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0) :=
  (by decide +kernel : ∀ t : Fin grid3.N, _)

/-- Row r of block t is row 2000 · t + r of the array. -/
def rowOf (t : Fin cfg3.N) (r : Fin 2000) : Fin 100000 :=
  ⟨2000 * t.val + r.val, by have ht : t.val < 50 := t.isLt; have := r.isLt; omega⟩

theorem rowOf_val (t : Fin cfg3.N) (r : Fin 2000) : (rowOf t r).val = 2000 * t.val + r.val := rfl

/-- The h block at point t is rows 2000 t … 2000 t + 1999 of h. -/
theorem hblk_apply (c : Dev nD) (t : Fin cfg3.N) (r : Fin 2000) (k : Fin 16) :
    (iblk3 V c 0 t : Vec Ideal S2000x16 .f32) (ix2 r k) = (V c main_v52 : S100000x16.Idx → EReal) (ix2 (rowOf t r) k) := by
  obtain ⟨⟨e0, e1⟩, -⟩ := idx_facts t
  unfold iblk3
  rw [View.read_apply]
  show V c main_v52 _ = V c main_v52 _
  refine congrArg _ ?_
  funext a
  apply Fin.ext
  match a with
  | ⟨0, _⟩ => show win3_0.index t 0 * 2000 + 1 * r.val = 2000 * t.val + r.val; rw [e0]; omega
  | ⟨1, _⟩ => show win3_0.index t 1 * 16 + 1 * k.val = k.val; rw [e1]; omega

/-- The agg block at point t is the same rows of agg. -/
theorem aggblk_apply (c : Dev nD) (t : Fin cfg3.N) (r : Fin 2000) (k : Fin 16) :
    (iblk3 V c 1 t : Vec Ideal S2000x16 .f32) (ix2 r k) = (V c main_v65 : S100000x16.Idx → EReal) (ix2 (rowOf t r) k) := by
  obtain ⟨-, ⟨e0, e1⟩, -⟩ := idx_facts t
  unfold iblk3
  rw [View.read_apply]
  show V c main_v65 _ = V c main_v65 _
  refine congrArg _ ?_
  funext a
  apply Fin.ext
  match a with
  | ⟨0, _⟩ => show win3_1.index t 0 * 2000 + 1 * r.val = 2000 * t.val + r.val; rw [e0]; omega
  | ⟨1, _⟩ => show win3_1.index t 1 * 16 + 1 * k.val = k.val; rw [e1]; omega

/-- The coefficient column's block at point t is the same rows of the column. -/
theorem sblk_apply (c : Dev nD) (t : Fin cfg3.N) (r : Fin 2000) (u : Fin 1) :
    (iblk3 V c 2 t : Vec Ideal S2000x1 .f32) (ix2 r u) = (V c main_v66 : S100000x1.Idx → EReal) (ix2 (rowOf t r) u) := by
  obtain ⟨-, -, ⟨e0, e1⟩, -⟩ := idx_facts t
  unfold iblk3
  rw [View.read_apply]
  show V c main_v66 _ = V c main_v66 _
  refine congrArg _ ?_
  funext a
  apply Fin.ext
  match a with
  | ⟨0, _⟩ => show win3_2.index t 0 * 2000 + 1 * r.val = 2000 * t.val + r.val; rw [e0]; omega
  | ⟨1, _⟩ => show win3_2.index t 1 * 1 + 1 * u.val = u.val; rw [e1]; omega

/-- The bias row's block at every point is the whole row. -/
theorem bblk_apply (c : Dev nD) (t : Fin cfg3.N) (u : Fin 1) (q : Fin 16) :
    (iblk3 V c 3 t : Vec Ideal S1x16 .f32) (ix2 u q) = (V c main_v67 : S1x16.Idx → EReal) (ix2 u q) := by
  obtain ⟨-, -, -, ⟨e0, e1⟩, -⟩ := idx_facts t
  unfold iblk3
  rw [View.read_apply]
  show V c main_v67 _ = V c main_v67 _
  refine congrArg _ ?_
  funext a
  apply Fin.ext
  match a with
  | ⟨0, _⟩ => show win3_3.index t 0 * 1 + 1 * u.val = u.val; rw [e0]; omega
  | ⟨1, _⟩ => show win3_3.index t 1 * 16 + 1 * q.val = q.val; rw [e1]; omega

/-- An array read through the output window's block at point t: block row r is array row 2000 t + r. -/
theorem oblk_apply (c : Dev nD) (G : S100000x16.Idx → EReal) (t : Fin cfg3.N) (r : Fin 2000) (q : Fin 16) :
    (((cfg3.win 4).blk t).view.read (Elt Ideal) (G : Buf (Elt Ideal) ((c : Thread nD τ).loc main_v68)) : Vec Ideal S2000x16 .f32) (ix2 r q) = G (ix2 (rowOf t r) q) := by
  obtain ⟨-, -, -, -, ⟨e0, e1⟩⟩ := idx_facts t
  rw [View.read_apply]
  show G _ = G _
  refine congrArg _ ?_
  funext a
  apply Fin.ext
  match a with
  | ⟨0, _⟩ => show win3_4.index t 0 * 2000 + 1 * r.val = 2000 * t.val + r.val; rw [e0]; omega
  | ⟨1, _⟩ => show win3_4.index t 1 * 16 + 1 * q.val = q.val; rw [e1]; omega

/-! ## What a point writes back, and the array after the launch -/

/-- The block's pre-activation at (r, q) is layer 2's pre-activation at array row 2000 t + r: the column read
    through its reshape is s at the row, the row read through its reshape is b at the column. -/
theorem zblk_iblk (c : Dev nD) (s : FVec Ideal S100000 .f32) (b : FVec Ideal S16 .f32)
    (hs : V c main_v66 = shapeCast S100000x1 s shapeCasts_S100000_S100000x1)
    (hb : V c main_v67 = shapeCast S1x16 b shapeCasts_S16_S1x16) (t : Fin cfg3.N) (r : Fin 2000) (q : Fin 16) :
    zblk (iblk3 V c 0 t) (iblk3 V c 1 t) (iblk3 V c 2 t) (iblk3 V c 3 t) (ix2 r q)
      = Cert.Gcn.pre2 (V c main_v52) (V c main_v65) s b (ix2 (rowOf t r) q) := by
  refine (zblk_apply _ _ _ _ r q).trans ?_
  refine Eq.trans ?_ (Cert.Gcn.pre2_apply _ _ s b (rowOf t r) q).symm
  rw [hblk_apply V c t r q, aggblk_apply V c t r q, sblk_apply V c t r 0, bblk_apply V c t 0 q, hs, hb,
    Cert.Lib.Column.shapeCast_a_a1_apply, shapeCast_a_1a_apply]

/-- WHAT POINT t WRITES BACK is block t of the row-wise log-softmax of layer 2's pre-activation: a row's 16 entries
    lie in one block, so the row's maximum and the row's sum of exponentials are taken over the same 16 entries. -/
theorem flushed_eq (c : Dev nD) (s : FVec Ideal S100000 .f32) (b : FVec Ideal S16 .f32)
    (hs : V c main_v66 = shapeCast S100000x1 s shapeCasts_S100000_S100000x1)
    (hb : V c main_v67 = shapeCast S1x16 b shapeCasts_S16_S1x16) (t : Fin cfg3.N) :
    (dat3 (F := Ideal) V c).flushed 4 t
      = ((cfg3.win 4).blk t).view.read (Elt Ideal) (Cert.Gcn.lsm (Cert.Gcn.pre2 (V c main_v52) (V c main_v65) s b)) := by
  show (cfg3.win 4).cut (grid3.coords t) ((dat3 (F := Ideal) V c).after 4 t) = _
  rw [after3_4]
  unfold out3_4
  rw [View.canon_unit_zero hz]
  simp only [View.ld_unit_zero (S := S2000x16) hz, View.ld_unit_zero (S := S2000x1) hz, View.ld_unit_zero (S := S1x16) hz]
  rw [pay_eq]
  funext j
  obtain ⟨r, q, rfl⟩ : ∃ (r : Fin 2000) (q : Fin 16), j = ix2 r q := ⟨j 0, j 1, eq_ix2 j⟩
  refine Eq.trans (lsmBody_apply _ r q) ?_
  refine Eq.trans ?_ (oblk_apply c _ t r q).symm
  refine Eq.trans ?_ (Cert.Gcn.lsm_apply _ (rowOf t r) q).symm
  have hZ : ∀ k : Fin 16, zblk (iblk3 V c 0 t) (iblk3 V c 1 t) (iblk3 V c 2 t) (iblk3 V c 3 t) (ix2 r k)
      = Cert.Gcn.pre2 (V c main_v52) (V c main_v65) s b (ix2 (rowOf t r) k) := fun k => zblk_iblk V c s b hs hb t r k
  have hM : blkMax (zblk (iblk3 V c 0 t) (iblk3 V c 1 t) (iblk3 V c 2 t) (iblk3 V c 3 t)) r
      = Cert.Gcn.rowMax (Cert.Gcn.pre2 (V c main_v52) (V c main_v65) s b) (rowOf t r) := by
    unfold blkMax Cert.Gcn.rowMax
    exact congrArg (fun f => (Finset.univ : Finset (Fin 16)).fold max (Ideal.ofBits .f32 0xFF800000#32) f) (funext hZ)
  rw [hM, hZ q]
  exact congrArg (fun S => _ - Ideal.log S) (Finset.sum_congr rfl fun k _ => by rw [hZ k])

/-- An index of the array is in point t's block iff each coordinate is in the block's range on its axis. -/
theorem mem_blk (t : Fin cfg3.N) (i : S100000x16.Idx) :
    i ∈ ((cfg3.win 4).blk t).view.set ↔ ∀ a : Fin 2, win3_4.index t a * S2000x16.size a ≤ (i a).val ∧ (i a).val < win3_4.index t a * S2000x16.size a + S2000x16.size a := by
  show i ∈ ((View.whole main_v68).slice (win3_4.rect t)).set ↔ _
  rw [View.set_slice_whole, Rect.mem_set_unit]
  exact Iff.rfl

/-- Every index of the array is in the block of the point its row divided by 2000 names. -/
theorem cover (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hlt : (i 0).val / 2000 < cfg3.N := by show (i 0).val / 2000 < 50; omega
  obtain ⟨-, -, -, -, ⟨e0, e1⟩⟩ := idx_facts ⟨(i 0).val / 2000, hlt⟩
  refine ⟨⟨(i 0).val / 2000, hlt⟩, flush3_4 _, ?_⟩
  rw [mem_blk]
  intro a
  match a with
  | ⟨0, _⟩ =>
    show win3_4.index ⟨(i 0).val / 2000, hlt⟩ 0 * 2000 ≤ (i 0).val ∧ (i 0).val < win3_4.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win3_4.index ⟨(i 0).val / 2000, hlt⟩ 1 * 16 ≤ (i 1).val ∧ (i 1).val < win3_4.index ⟨(i 0).val / 2000, hlt⟩ 1 * 16 + 16
    rw [e1]
    omega

/-- After the launch the output array is the row-wise log-softmax of layer 2's pre-activation. -/
theorem final (c : Dev nD) (s : FVec Ideal S100000 .f32) (b : FVec Ideal S16 .f32)
    (hs : V c main_v66 = shapeCast S100000x1 s shapeCasts_S100000_S100000x1)
    (hb : V c main_v67 = shapeCast S1x16 b shapeCasts_S16_S1x16) :
    (dat3 (F := Ideal) V c).arrAt 4 cfg3.N = Cert.Gcn.lsm (Cert.Gcn.pre2 (V c main_v52) (V c main_v65) s b) :=
  (dat3 (F := Ideal) V c).arrAt_eq_of_cover 4 (Cert.Gcn.lsm (Cert.Gcn.pre2 (V c main_v52) (V c main_v65) s b))
    (fun t _ => flushed_eq V c s b hs hb t) cover

end Cert.KernelIdeal.Reg3

end
-- ==== Proof.Net.lean ====
/-
  The whole network as one function of the six argument arrays: layer 1's product, neighbour sum and activation,
  then layer 2's, the neighbour sums being the host functions of the edge array.
-/
import proofs.«154826_j3015067042303_2_alg».proof.Proof.Spec
import proofs.«154826_j3015067042303_2_alg».proof.Proof.KHostDefs

noncomputable section

namespace Cert.Gcn

open Idealize.ShloMosaic Cert.KernelIdeal Cert.KernelIdeal.HostVal

/-- Layer 1's output: max((agg(h) + h · selfc) + b₁, 0) with h = x · W₁. -/
def hidden (x : FVec Ideal SNx512 .f32) (e : (⟨S2x1600000, .i32⟩ : BufTy).Contents (Elt Ideal)) (w1 : FVec Ideal SW1 .f32)
    (b1 : FVec Ideal SB1 .f32) : FVec Ideal SNx64 .f32 :=
  act1 (lin1 x w1) (agg1 (F := Ideal) (lin1 x w1) e) (selfc (F := Ideal) e) b1

/-- The network's output: the row-wise log-softmax of (agg(h) + h · selfc) + b₂ with h = (layer 1's output) · W₂. -/
def net (x : FVec Ideal SNx512 .f32) (e : (⟨S2x1600000, .i32⟩ : BufTy).Contents (Elt Ideal)) (w1 : FVec Ideal SW1 .f32)
    (b1 : FVec Ideal SB1 .f32) (w2 : FVec Ideal SW2 .f32) (b2 : FVec Ideal SB2 .f32) : FVec Ideal SNx16 .f32 :=
  lsm (pre2 (lin2 (hidden x e w1 b1) w2) (agg2 (F := Ideal) (lin2 (hidden x e w1 b1) w2) e) (selfc (F := Ideal) e) b2)

end Cert.Gcn

end
-- ==== Proof.KValue.lean ====
/-
  The idealized kernel program computes the network: following the result buffer back through the eleven segments,
  each launch's output array is its function of the arrays it was entered with, and those are the earlier launches'
  outputs, the host functions of the edge array, and the arguments as launched.
-/
import proofs.«154826_j3015067042303_2_alg».proof.Proof.KRun
import proofs.«154826_j3015067042303_2_alg».proof.Proof.KHostRead
import proofs.«154826_j3015067042303_2_alg».proof.Proof.Reg0
import proofs.«154826_j3015067042303_2_alg».proof.Proof.Reg1
import proofs.«154826_j3015067042303_2_alg».proof.Proof.Reg2
import proofs.«154826_j3015067042303_2_alg».proof.Proof.Reg3
import proofs.«154826_j3015067042303_2_alg».proof.Proof.Net

set_option maxRecDepth 16384

noncomputable section

namespace Cert.KernelIdeal.NetValue

open Cert.KernelIdeal Cert.KernelIdeal.Gen Cert.KernelIdeal.HostVal
open Idealize.ShloMosaic Idealize.ShloMosaic.TcCoe Idealize.SL.Sem

variable (m : (ℓ : Loc nD τ sig) → Buf (Elt Ideal) ℓ) (ρ : Dev nD → PrngReg) (c : Dev nD)

/-- After the first launch: x · W₁. -/
theorem out0 : W6 m ρ c (Proc.devRef .tc main_v35) = Cert.Gcn.lin1 (m ((c : Thread nD τ).loc main_arg0)) (m ((c : Thread nD τ).loc main_arg2)) := by
  refine (W6_arr m ρ c 2).trans ?_
  refine (Reg0.final (V5 m ρ) c).trans ?_
  show Cert.Gcn.lin1 (W5 m ρ c (Proc.devRef .tc main_arg0)) (W5 m ρ c (Proc.devRef .tc main_arg2)) = _
  rw [HostRead.arg0_5, HostRead.arg2_5]

/-- After the second launch: layer 1's output. -/
theorem out1 : W8 m ρ c (Proc.devRef .tc main_v51)
    = Cert.Gcn.hidden (m ((c : Thread nD τ).loc main_arg0)) (m ((c : Thread nD τ).loc main_arg1)) (m ((c : Thread nD τ).loc main_arg2)) (m ((c : Thread nD τ).loc main_arg3)) := by
  refine (W8_arr m ρ c 4).trans ?_
  refine (Reg1.final (V7 m ρ) c (selfc (F := Ideal) (m ((c : Thread nD τ).loc main_arg1))) (m ((c : Thread nD τ).loc main_arg3))
    (HostRead.sc7 m ρ c) (HostRead.b7 m ρ c)).trans ?_
  show Cert.Gcn.act1 (W7 m ρ c (Proc.devRef .tc main_v35)) (W7 m ρ c (Proc.devRef .tc main_v48)) _ _ = _
  rw [HostRead.h7, HostRead.agg7, out0]
  rfl

/-- After the third launch: (layer 1's output) · W₂. -/
theorem out2 : W9 m ρ c (Proc.devRef .tc main_v52)
    = Cert.Gcn.lin2 (Cert.Gcn.hidden (m ((c : Thread nD τ).loc main_arg0)) (m ((c : Thread nD τ).loc main_arg1)) (m ((c : Thread nD τ).loc main_arg2)) (m ((c : Thread nD τ).loc main_arg3))) (m ((c : Thread nD τ).loc main_arg4)) := by
  refine (W9_arr m ρ c 2).trans ?_
  refine (Reg2.final (V8 m ρ) c).trans ?_
  show Cert.Gcn.lin2 (W8 m ρ c (Proc.devRef .tc main_v51)) (W8 m ρ c (Proc.devRef .tc main_arg4)) = _
  rw [out1, HostRead.arg4_8]

/-- After the fourth launch: the network's output. -/
theorem out3 : W11 m ρ c (Proc.devRef .tc main_v68)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 4).trans ?_
  refine (Reg3.final (V10 m ρ) c (selfc (F := Ideal) (m ((c : Thread nD τ).loc main_arg1))) (m ((c : Thread nD τ).loc main_arg5))
    (HostRead.sc10 m ρ c) (HostRead.b10 m ρ c)).trans ?_
  show Cert.Gcn.lsm (Cert.Gcn.pre2 (W10 m ρ c (Proc.devRef .tc main_v52)) (W10 m ρ c (Proc.devRef .tc main_v65)) _ _) = _
  rw [HostRead.h10, HostRead.agg10, out2]
  rfl

/-- The run, read: the result buffer ends at the network's output of the launch memory, the arguments as launched. -/
theorem run : θ_run defs (onTc (τ := τ) (main (F := Ideal))) ⟨m, fun _ => 0, ρ⟩ (fun r => ∀ c : Dev nD,
      r.2.mem ((c.tc : Thread nD τ).loc main_v68)
        = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out3 m ρ c), (h c).2⟩) (Cert.KernelIdeal.RunValue.run (F := Ideal) m ρ)

end Cert.KernelIdeal.NetValue

end
-- ==== Proof.RefRun.lean ====
/-
  The reference program's run, by hand: @main is 168 host operations and no launch, so every weakly fair execution
  terminates with each buffer at the fold of the operations' results over the launch memory.  The operations are
  listed in seven stretches, cut where a value is read by several later operations (the inverse square-root degree,
  the edges' normalised weights, each layer's output, layer 2's pre-activation), so that each stretch's results can be read as functions of the
  values the stretch before left, never as one tree over the arguments.
-/
import proofs.«154826_j3015067042303_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1–27, through dinv: x · W₁, the edge vectors, the weights, the degree and deg^(-1/2). -/
abbrev opsA : List (HloOp τ sig (Elt F)) :=
  [ binary main_arg0 main_arg2 main_v0 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    binary main_v2 main_v4 main_v5 (cmpi .eq : (⟨S1600000, .i32⟩ : BufTy).Contents (Elt F) → (⟨S1600000, .i32⟩ : BufTy).Contents (Elt F) → (⟨S1600000, .i1⟩ : BufTy).Contents (Elt F)),
    nullary main_cst (constant S_ .f32 0x00000000#32),
    nullary main_cst_0 (constant S_ .f32 0x3F800000#32),
    TRef.unary (TRef.of (T := ⟨S_, .f32⟩) main_cst) (TRef.of (T := ⟨S1600000, .f32⟩) main_call0_v0) (broadcastInDim S1600000 ![] bcast_S_S1600000),
    TRef.unary (TRef.of (T := ⟨S_, .f32⟩) main_cst_0) (TRef.of (T := ⟨S1600000, .f32⟩) main_call0_v1) (broadcastInDim S1600000 ![] bcast_S_S1600000),
    TRef.ternary (TRef.of (T := ⟨S1600000, .i1⟩) main_v5) (TRef.of (T := ⟨S1600000, .f32⟩) main_call0_v0) (TRef.of (T := ⟨S1600000, .f32⟩) main_call0_v1) (TRef.of (T := ⟨S1600000, .f32⟩) main_v6) select,
    nullary main_cst_1 (constant S_ .f32 0x00000000#32),
    unary main_cst_1 main_v7 (broadcastInDim S100000 ![] bcast_S_S100000 : (⟨S_, .f32⟩ : BufTy).Contents (Elt F) → (⟨S100000, .f32⟩ : BufTy).Contents (Elt F)),
    unary main_v4 main_v8 (broadcastInDim S1600000x1 ![0] bcast_S1600000_S1600000x1_0 : (⟨S1600000, .i32⟩ : BufTy).Contents (Elt F) → (⟨S1600000x1, .i32⟩ : BufTy).Contents (Elt F)),
    unary main_v6 main_v9 (id : (⟨S1600000, .f32⟩ : BufTy).Contents (Elt F) → (⟨S1600000, .f32⟩ : BufTy).Contents (Elt F)),
    ternary main_v7 main_v8 main_v9 main_v10 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x40000000#32),
    unary main_cst_2 main_v11 (broadcastInDim S100000 ![] bcast_S_S100000 : (⟨S_, .f32⟩ : BufTy).Contents (Elt F) → (⟨S100000, .f32⟩ : BufTy).Contents (Elt F)),
    binary main_v11 main_v10 main_v12 (addf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    unary main_cst_3 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v14) (TRef.of (T := ⟨S100000, .f32⟩) main_v15) (TRef.of (T := ⟨S100000, .f32⟩) main_call1_v1) (TRef.of (T := ⟨S100000, .f32⟩) main_v16) select ]

set_option maxRecDepth 8192 in
theorem opsA_sub : (opsA : List (HloOp τ sig (Elt F))).Forall fun op => op.bufs ⊆ tcRefs τ sig :=
  ⟨binary_bufs_sub .., unary_bufs_sub .., reshape_bufs_sub .., unary_bufs_sub .., reshape_bufs_sub .., binary_bufs_sub .., nullary_bufs_sub .., nullary_bufs_sub .., unary_bufs_sub .., unary_bufs_sub .., ternary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem opsA_fresh : (opsA : List (HloOp τ sig (Elt F))).Forall fun op => op.fresh = ∅ := by
  simp only [List.Forall]; repeat' constructor

/-- Operations 28–48, through coef: the edges' normalised weights. -/
abbrev opsB : List (HloOp τ sig (Elt F)) :=
  [ nullary main_c (constantI S_ 32 0#32),
    unary main_c main_v17 (broadcastInDim S1600000 ![] bcast_S_S1600000 : (⟨S_, .i32⟩ : BufTy).Contents (Elt F) → (⟨S1600000, .i32⟩ : BufTy).Contents (Elt F)),
    binary main_v2 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v19 (broadcastInDim S1600000 ![] bcast_S_S1600000 : (⟨S_, .i32⟩ : BufTy).Contents (Elt F) → (⟨S1600000, .i32⟩ : BufTy).Contents (Elt F)),
    binary main_v2 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_v2 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v6 main_v24 (id : (⟨S1600000, .f32⟩ : BufTy).Contents (Elt F) → (⟨S1600000, .f32⟩ : BufTy).Contents (Elt F)),
    binary main_v24 main_v23 main_v25 (mulf : (⟨S1600000, .f32⟩ : BufTy).Contents (Elt F) → (⟨S1600000, .f32⟩ : BufTy).Contents (Elt F) → (⟨S1600000, .f32⟩ : BufTy).Contents (Elt F)),
    nullary main_c_6 (constantI S_ 32 0#32),
    unary main_c_6 main_v26 (broadcastInDim S1600000 ![] bcast_S_S1600000 : (⟨S_, .i32⟩ : BufTy).Contents (Elt F) → (⟨S1600000, .i32⟩ : BufTy).Contents (Elt F)),
    binary main_v4 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v28 (broadcastInDim S1600000 ![] bcast_S_S1600000 : (⟨S_, .i32⟩ : BufTy).Contents (Elt F) → (⟨S1600000, .i32⟩ : BufTy).Contents (Elt F)),
    binary main_v4 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_v4 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v16 main_v31 main_v32 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v25 main_v32 main_v33 (mulf : (⟨S1600000, .f32⟩ : BufTy).Contents (Elt F) → (⟨S1600000, .f32⟩ : BufTy).Contents (Elt F) → (⟨S1600000, .f32⟩ : BufTy).Contents (Elt F)) ]

set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsB_fresh : (opsB : List (HloOp τ sig (Elt F))).Forall fun op => op.fresh = ∅ := by
  simp only [List.Forall]; repeat' constructor

/-- Operations 49–78, through layer 1's output: the neighbour sum, the self-loop term, the bias and the maximum with zero. -/
abbrev opsC : List (HloOp τ sig (Elt F)) :=
  [ nullary main_c_8 (constantI S_ 32 0#32),
    unary main_c_8 main_v34 (broadcastInDim S1600000 ![] bcast_S_S1600000 : (⟨S_, .i32⟩ : BufTy).Contents (Elt F) → (⟨S1600000, .i32⟩ : BufTy).Contents (Elt F)),
    binary main_v2 main_v34 main_v35 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v36 (broadcastInDim S1600000 ![] bcast_S_S1600000 : (⟨S_, .i32⟩ : BufTy).Contents (Elt F) → (⟨S1600000, .i32⟩ : BufTy).Contents (Elt F)),
    binary main_v2 main_v36 main_v37 (addi : (⟨S1600000, .i32⟩ : BufTy).Contents (Elt F) → (⟨S1600000, .i32⟩ : BufTy).Contents (Elt F) → (⟨S1600000, .i32⟩ : BufTy).Contents (Elt F)),
    ternary main_v35 main_v37 main_v2 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v38 main_v39 (broadcastInDim S1600000x1 ![0] bcast_S1600000_S1600000x1_0 : (⟨S1600000, .i32⟩ : BufTy).Contents (Elt F) → (⟨S1600000x1, .i32⟩ : BufTy).Contents (Elt F)),
    binary main_v0 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v33 main_v41 (broadcastInDim S1600000x1 ![0] bcast_S1600000_S1600000x1_0 : (⟨S1600000, .f32⟩ : BufTy).Contents (Elt F) → (⟨S1600000x1, .f32⟩ : BufTy).Contents (Elt F)),
    unary main_v41 main_v42 (broadcastInDim S1600000x64 ![0, 1] bcast_S1600000x1_S1600000x64_0_1 : (⟨S1600000x1, .f32⟩ : BufTy).Contents (Elt F) → (⟨S1600000x64, .f32⟩ : BufTy).Contents (Elt F)),
    binary main_v40 main_v42 main_v43 (mulf : (⟨S1600000x64, .f32⟩ : BufTy).Contents (Elt F) → (⟨S1600000x64, .f32⟩ : BufTy).Contents (Elt F) → (⟨S1600000x64, .f32⟩ : BufTy).Contents (Elt F)),
    nullary main_cst_10 (constant S_ .f32 0x00000000#32),
    unary main_cst_10 main_v44 (broadcastInDim S100000x64 ![] bcast_S_S100000x64 : (⟨S_, .f32⟩ : BufTy).Contents (Elt F) → (⟨S100000x64, .f32⟩ : BufTy).Contents (Elt F)),
    unary main_v4 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_11 (constant S_ .f32 0x40000000#32),
    unary main_cst_11 main_v47 (broadcastInDim S100000 ![] bcast_S_S100000 : (⟨S_, .f32⟩ : BufTy).Contents (Elt F) → (⟨S100000, .f32⟩ : BufTy).Contents (Elt F)),
    binary main_v47 main_v16 main_v48 (mulf : (⟨S100000, .f32⟩ : BufTy).Contents (Elt F) → (⟨S100000, .f32⟩ : BufTy).Contents (Elt F) → (⟨S100000, .f32⟩ : BufTy).Contents (Elt F)),
    binary main_v48 main_v16 main_v49 (mulf : (⟨S100000, .f32⟩ : BufTy).Contents (Elt F) → (⟨S100000, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    unary main_v50 main_v51 (broadcastInDim S100000x64 ![0, 1] bcast_S100000x1_S100000x64_0_1 : (⟨S100000x1, .f32⟩ : BufTy).Contents (Elt F) → (⟨S100000x64, .f32⟩ : BufTy).Contents (Elt F)),
    binary main_v0 main_v51 main_v52 (mulf : (⟨S100000x64, .f32⟩ : BufTy).Contents (Elt F) → (⟨S100000x64, .f32⟩ : BufTy).Contents (Elt F) → (⟨S100000x64, .f32⟩ : BufTy).Contents (Elt F)),
    binary main_v46 main_v52 main_v53 (addf : (⟨S100000x64, .f32⟩ : BufTy).Contents (Elt F) → (⟨S100000x64, .f32⟩ : BufTy).Contents (Elt F) → (⟨S100000x64, .f32⟩ : BufTy).Contents (Elt F)),
    unary main_arg3 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v56) (TRef.of (T := ⟨S100000x64, .f32⟩) main_call2_v0) (TRef.of (T := ⟨S100000x64, .f32⟩) main_v57) maximumf ]

set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem opsC_fresh : (opsC : List (HloOp τ sig (Elt F))).Forall fun op => op.fresh = ∅ := by
  simp only [List.Forall]; repeat' constructor

/-- Operations 79–105, layer 2's product, and the structure computed again: the edge vectors, the weights, the degree and deg^(-1/2). -/
abbrev opsD : List (HloOp τ sig (Elt F)) :=
  [ binary main_v57 main_arg4 main_v58 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg1 main_v59 ((extractStridedSlice S1x1600000 ![0, 0] · slices_S2x1600000_S1x1600000_0_0) : (⟨S2x1600000, .i32⟩ : BufTy).Contents (Elt F) → (⟨S1x1600000, .i32⟩ : BufTy).Contents (Elt F)),
    reshape main_v59 main_v60 rfl shapeCasts_S1x1600000_S1600000,
    unary main_arg1 main_v61 ((extractStridedSlice S1x1600000 ![1, 0] · slices_S2x1600000_S1x1600000_1_0) : (⟨S2x1600000, .i32⟩ : BufTy).Contents (Elt F) → (⟨S1x1600000, .i32⟩ : BufTy).Contents (Elt F)),
    reshape main_v61 main_v62 rfl shapeCasts_S1x1600000_S1600000,
    binary main_v60 main_v62 main_v63 (cmpi .eq : (⟨S1600000, .i32⟩ : BufTy).Contents (Elt F) → (⟨S1600000, .i32⟩ : BufTy).Contents (Elt F) → (⟨S1600000, .i1⟩ : BufTy).Contents (Elt F)),
    nullary main_cst_12 (constant S_ .f32 0x00000000#32),
    nullary main_cst_13 (constant S_ .f32 0x3F800000#32),
    TRef.unary (TRef.of (T := ⟨S_, .f32⟩) main_cst_12) (TRef.of (T := ⟨S1600000, .f32⟩) main_call3_v0) (broadcastInDim S1600000 ![] bcast_S_S1600000),
    TRef.unary (TRef.of (T := ⟨S_, .f32⟩) main_cst_13) (TRef.of (T := ⟨S1600000, .f32⟩) main_call3_v1) (broadcastInDim S1600000 ![] bcast_S_S1600000),
    TRef.ternary (TRef.of (T := ⟨S1600000, .i1⟩) main_v63) (TRef.of (T := ⟨S1600000, .f32⟩) main_call3_v0) (TRef.of (T := ⟨S1600000, .f32⟩) main_call3_v1) (TRef.of (T := ⟨S1600000, .f32⟩) main_v64) select,
    nullary main_cst_14 (constant S_ .f32 0x00000000#32),
    unary main_cst_14 main_v65 (broadcastInDim S100000 ![] bcast_S_S100000 : (⟨S_, .f32⟩ : BufTy).Contents (Elt F) → (⟨S100000, .f32⟩ : BufTy).Contents (Elt F)),
    unary main_v62 main_v66 (broadcastInDim S1600000x1 ![0] bcast_S1600000_S1600000x1_0 : (⟨S1600000, .i32⟩ : BufTy).Contents (Elt F) → (⟨S1600000x1, .i32⟩ : BufTy).Contents (Elt F)),
    unary main_v64 main_v67 (id : (⟨S1600000, .f32⟩ : BufTy).Contents (Elt F) → (⟨S1600000, .f32⟩ : BufTy).Contents (Elt F)),
    ternary main_v65 main_v66 main_v67 main_v68 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x40000000#32),
    unary main_cst_15 main_v69 (broadcastInDim S100000 ![] bcast_S_S100000 : (⟨S_, .f32⟩ : BufTy).Contents (Elt F) → (⟨S100000, .f32⟩ : BufTy).Contents (Elt F)),
    binary main_v69 main_v68 main_v70 (addf : (⟨S100000, .f32⟩ : BufTy).Contents (Elt F) → (⟨S100000, .f32⟩ : BufTy).Contents (Elt F) → (⟨S100000, .f32⟩ : BufTy).Contents (Elt F)),
    nullary main_cst_16 (constant S_ .f32 0x00000000#32),
    unary main_cst_16 main_v71 (broadcastInDim S100000 ![] bcast_S_S100000 : (⟨S_, .f32⟩ : BufTy).Contents (Elt F) → (⟨S100000, .f32⟩ : BufTy).Contents (Elt F)),
    binary main_v70 main_v71 main_v72 (cmpf .ogt : (⟨S100000, .f32⟩ : BufTy).Contents (Elt F) → (⟨S100000, .f32⟩ : BufTy).Contents (Elt F) → (⟨S100000, .i1⟩ : BufTy).Contents (Elt F)),
    unary main_v70 main_v73 (Host.rsqrt : (⟨S100000, .f32⟩ : BufTy).Contents (Elt F) → (⟨S100000, .f32⟩ : BufTy).Contents (Elt F)),
    nullary main_cst_17 (constant S_ .f32 0x00000000#32),
    TRef.unary (TRef.of (T := ⟨S_, .f32⟩) main_cst_17) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v72) (TRef.of (T := ⟨S100000, .f32⟩) main_v73) (TRef.of (T := ⟨S100000, .f32⟩) main_call4_v1) (TRef.of (T := ⟨S100000, .f32⟩) main_v74) select ]

set_option maxRecDepth 8192 in
theorem opsD_sub : (opsD : List (HloOp τ sig (Elt F))).Forall fun op => op.bufs ⊆ tcRefs τ sig :=
  ⟨binary_bufs_sub .., unary_bufs_sub .., reshape_bufs_sub .., unary_bufs_sub .., reshape_bufs_sub .., binary_bufs_sub .., nullary_bufs_sub .., nullary_bufs_sub .., unary_bufs_sub .., unary_bufs_sub .., ternary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem opsD_fresh : (opsD : List (HloOp τ sig (Elt F))).Forall fun op => op.fresh = ∅ := by
  simp only [List.Forall]; repeat' constructor

/-- Operations 106–126, the edges' normalised weights, again. -/
abbrev opsE : List (HloOp τ sig (Elt F)) :=
  [ nullary main_c_18 (constantI S_ 32 0#32),
    unary main_c_18 main_v75 (broadcastInDim S1600000 ![] bcast_S_S1600000 : (⟨S_, .i32⟩ : BufTy).Contents (Elt F) → (⟨S1600000, .i32⟩ : BufTy).Contents (Elt F)),
    binary main_v60 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v77 (broadcastInDim S1600000 ![] bcast_S_S1600000 : (⟨S_, .i32⟩ : BufTy).Contents (Elt F) → (⟨S1600000, .i32⟩ : BufTy).Contents (Elt F)),
    binary main_v60 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v60 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v74 main_v80 main_v81 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v64 main_v82 (id : (⟨S1600000, .f32⟩ : BufTy).Contents (Elt F) → (⟨S1600000, .f32⟩ : BufTy).Contents (Elt F)),
    binary main_v82 main_v81 main_v83 (mulf : (⟨S1600000, .f32⟩ : BufTy).Contents (Elt F) → (⟨S1600000, .f32⟩ : BufTy).Contents (Elt F) → (⟨S1600000, .f32⟩ : BufTy).Contents (Elt F)),
    nullary main_c_20 (constantI S_ 32 0#32),
    unary main_c_20 main_v84 (broadcastInDim S1600000 ![] bcast_S_S1600000 : (⟨S_, .i32⟩ : BufTy).Contents (Elt F) → (⟨S1600000, .i32⟩ : BufTy).Contents (Elt F)),
    binary main_v62 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v86 (broadcastInDim S1600000 ![] bcast_S_S1600000 : (⟨S_, .i32⟩ : BufTy).Contents (Elt F) → (⟨S1600000, .i32⟩ : BufTy).Contents (Elt F)),
    binary main_v62 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_v62 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    binary main_v74 main_v89 main_v90 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v83 main_v90 main_v91 (mulf : (⟨S1600000, .f32⟩ : BufTy).Contents (Elt F) → (⟨S1600000, .f32⟩ : BufTy).Contents (Elt F) → (⟨S1600000, .f32⟩ : BufTy).Contents (Elt F)) ]

set_option maxRecDepth 8192 in
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsE_fresh : (opsE : List (HloOp τ sig (Elt F))).Forall fun op => op.fresh = ∅ := by
  simp only [List.Forall]; repeat' constructor

/-- Operations 127–153, layer 2's neighbour sum, self-loop term and bias: the pre-activation. -/
abbrev opsF : List (HloOp τ sig (Elt F)) :=
  [ nullary main_c_22 (constantI S_ 32 0#32),
    unary main_c_22 main_v92 (broadcastInDim S1600000 ![] bcast_S_S1600000 : (⟨S_, .i32⟩ : BufTy).Contents (Elt F) → (⟨S1600000, .i32⟩ : BufTy).Contents (Elt F)),
    binary main_v60 main_v92 main_v93 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v94 (broadcastInDim S1600000 ![] bcast_S_S1600000 : (⟨S_, .i32⟩ : BufTy).Contents (Elt F) → (⟨S1600000, .i32⟩ : BufTy).Contents (Elt F)),
    binary main_v60 main_v94 main_v95 (addi : (⟨S1600000, .i32⟩ : BufTy).Contents (Elt F) → (⟨S1600000, .i32⟩ : BufTy).Contents (Elt F) → (⟨S1600000, .i32⟩ : BufTy).Contents (Elt F)),
    ternary main_v93 main_v95 main_v60 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v96 main_v97 (broadcastInDim S1600000x1 ![0] bcast_S1600000_S1600000x1_0 : (⟨S1600000, .i32⟩ : BufTy).Contents (Elt F) → (⟨S1600000x1, .i32⟩ : BufTy).Contents (Elt F)),
    binary main_v58 main_v97 main_v98 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v91 main_v99 (broadcastInDim S1600000x1 ![0] bcast_S1600000_S1600000x1_0 : (⟨S1600000, .f32⟩ : BufTy).Contents (Elt F) → (⟨S1600000x1, .f32⟩ : BufTy).Contents (Elt F)),
    unary main_v99 main_v100 (broadcastInDim S1600000x16 ![0, 1] bcast_S1600000x1_S1600000x16_0_1 : (⟨S1600000x1, .f32⟩ : BufTy).Contents (Elt F) → (⟨S1600000x16, .f32⟩ : BufTy).Contents (Elt F)),
    binary main_v98 main_v100 main_v101 (mulf : (⟨S1600000x16, .f32⟩ : BufTy).Contents (Elt F) → (⟨S1600000x16, .f32⟩ : BufTy).Contents (Elt F) → (⟨S1600000x16, .f32⟩ : BufTy).Contents (Elt F)),
    nullary main_cst_24 (constant S_ .f32 0x00000000#32),
    unary main_cst_24 main_v102 (broadcastInDim S100000x16 ![] bcast_S_S100000x16 : (⟨S_, .f32⟩ : BufTy).Contents (Elt F) → (⟨S100000x16, .f32⟩ : BufTy).Contents (Elt F)),
    unary main_v62 main_v103 (broadcastInDim S1600000x1 ![0] bcast_S1600000_S1600000x1_0 : (⟨S1600000, .i32⟩ : BufTy).Contents (Elt F) → (⟨S1600000x1, .i32⟩ : BufTy).Contents (Elt F)),
    ternary main_v102 main_v103 main_v101 main_v104 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    nullary main_cst_25 (constant S_ .f32 0x40000000#32),
    unary main_cst_25 main_v105 (broadcastInDim S100000 ![] bcast_S_S100000 : (⟨S_, .f32⟩ : BufTy).Contents (Elt F) → (⟨S100000, .f32⟩ : BufTy).Contents (Elt F)),
    binary main_v105 main_v74 main_v106 (mulf : (⟨S100000, .f32⟩ : BufTy).Contents (Elt F) → (⟨S100000, .f32⟩ : BufTy).Contents (Elt F) → (⟨S100000, .f32⟩ : BufTy).Contents (Elt F)),
    binary main_v106 main_v74 main_v107 (mulf : (⟨S100000, .f32⟩ : BufTy).Contents (Elt F) → (⟨S100000, .f32⟩ : BufTy).Contents (Elt F) → (⟨S100000, .f32⟩ : BufTy).Contents (Elt F)),
    unary main_v107 main_v108 (broadcastInDim S100000x1 ![0] bcast_S100000_S100000x1_0 : (⟨S100000, .f32⟩ : BufTy).Contents (Elt F) → (⟨S100000x1, .f32⟩ : BufTy).Contents (Elt F)),
    unary main_v108 main_v109 (broadcastInDim S100000x16 ![0, 1] bcast_S100000x1_S100000x16_0_1 : (⟨S100000x1, .f32⟩ : BufTy).Contents (Elt F) → (⟨S100000x16, .f32⟩ : BufTy).Contents (Elt F)),
    binary main_v58 main_v109 main_v110 (mulf : (⟨S100000x16, .f32⟩ : BufTy).Contents (Elt F) → (⟨S100000x16, .f32⟩ : BufTy).Contents (Elt F) → (⟨S100000x16, .f32⟩ : BufTy).Contents (Elt F)),
    binary main_v104 main_v110 main_v111 (addf : (⟨S100000x16, .f32⟩ : BufTy).Contents (Elt F) → (⟨S100000x16, .f32⟩ : BufTy).Contents (Elt F) → (⟨S100000x16, .f32⟩ : BufTy).Contents (Elt F)),
    unary main_arg5 main_v112 (broadcastInDim S1x16 ![1] bcast_S16_S1x16_1 : (⟨S16, .f32⟩ : BufTy).Contents (Elt F) → (⟨S1x16, .f32⟩ : BufTy).Contents (Elt F)),
    unary main_v112 main_v113 (broadcastInDim S100000x16 ![0, 1] bcast_S1x16_S100000x16_0_1 : (⟨S1x16, .f32⟩ : BufTy).Contents (Elt F) → (⟨S100000x16, .f32⟩ : BufTy).Contents (Elt F)),
    binary main_v111 main_v113 main_v114 (addf : (⟨S100000x16, .f32⟩ : BufTy).Contents (Elt F) → (⟨S100000x16, .f32⟩ : BufTy).Contents (Elt F) → (⟨S100000x16, .f32⟩ : BufTy).Contents (Elt F)) ]

set_option maxRecDepth 8192 in
theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩
theorem opsF_fresh : (opsF : List (HloOp τ sig (Elt F))).Forall fun op => op.fresh = ∅ := by
  simp only [List.Forall]; repeat' constructor

/-- Operations 154–168, the row-wise log-softmax of the pre-activation. -/
abbrev opsG : List (HloOp τ sig (Elt F)) :=
  [ TRef.nullary (TRef.of (T := ⟨S_, .f32⟩) main_call5_cst) (constant S_ .f32 0xFF800000#32),
    TRef.binary (TRef.of (T := ⟨S100000x16, .f32⟩) main_v114) (TRef.of (T := ⟨S_, .f32⟩) main_call5_cst) (TRef.of (T := ⟨S100000, .f32⟩) main_call5_v0) (fun x v => Host.reduce FloatOps.maximumf x v reducesTo_S100000x16_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x16, .f32⟩) main_call5_v4) (broadcastInDim S100000x16 ![0, 1] bcast_S100000x1_S100000x16_0_1),
    TRef.binary (TRef.of (T := ⟨S100000x16, .f32⟩) main_v114) (TRef.of (T := ⟨S100000x16, .f32⟩) main_call5_v4) (TRef.of (T := ⟨S100000x16, .f32⟩) main_call5_v5) subf,
    TRef.unary (TRef.of (T := ⟨S100000x16, .f32⟩) main_call5_v5) (TRef.of (T := ⟨S100000x16, .f32⟩) main_call5_v6) Host.exp,
    TRef.nullary (TRef.of (T := ⟨S_, .f32⟩) main_call5_cst_1) (constant S_ .f32 0x00000000#32),
    TRef.binary (TRef.of (T := ⟨S100000x16, .f32⟩) main_call5_v6) (TRef.of (T := ⟨S_, .f32⟩) main_call5_cst_1) (TRef.of (T := ⟨S100000, .f32⟩) main_call5_v7) (fun x v => Host.reduceAdd x v reducesTo_S100000x16_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x16, .f32⟩) main_call5_v10) (broadcastInDim S100000x16 ![0, 1] bcast_S100000x1_S100000x16_0_1),
    TRef.binary (TRef.of (T := ⟨S100000x16, .f32⟩) main_call5_v5) (TRef.of (T := ⟨S100000x16, .f32⟩) main_call5_v10) (TRef.of (T := ⟨S100000x16, .f32⟩) main_v115) subf ]

set_option maxRecDepth 8192 in
theorem opsG_sub : (opsG : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsG_fresh : (opsG : List (HloOp τ sig (Elt F))).Forall fun op => op.fresh = ∅ := by
  simp only [List.Forall]; repeat' constructor

/-- @main's 168 operations, in order. -/
abbrev ops : List (HloOp τ sig (Elt F)) := opsA ++ (opsB ++ (opsC ++ (opsD ++ (opsE ++ (opsF ++ opsG)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsA_sub, List.forall_append.mpr ⟨opsB_sub, List.forall_append.mpr ⟨opsC_sub,
    List.forall_append.mpr ⟨opsD_sub, List.forall_append.mpr ⟨opsE_sub, List.forall_append.mpr ⟨opsF_sub, opsG_sub⟩⟩⟩⟩⟩⟩

theorem ops_fresh : (ops : List (HloOp τ sig (Elt F))).Forall fun op => op.fresh = ∅ :=
  List.forall_append.mpr ⟨opsA_fresh, List.forall_append.mpr ⟨opsB_fresh, List.forall_append.mpr ⟨opsC_fresh,
    List.forall_append.mpr ⟨opsD_fresh, List.forall_append.mpr ⟨opsE_fresh, List.forall_append.mpr ⟨opsF_fresh, opsG_fresh⟩⟩⟩⟩⟩⟩

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Every weakly fair execution of @main terminates, and every buffer of core c ends at the fold of the seven
    stretches over the launch memory. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsG (after opsF (after opsE (after opsD (after opsC (after opsB (after opsA (launchContents m c))))))) (Proc.devRef .tc b) :=
  (θ_run defs _ _).mono (fun _ h c b => by
      rw [h c b]
      simp only [ops, after_append])
    (run_seq scopedRefs_eq scopedSems_eq defs main (fun _ => ops) main_eq (fun _ => ops_sub) m ρ
      (fun _ => List.forall_iff_forall_mem.mp ops_fresh))

end Cert.ReferenceIdeal.HandRun

end
-- ==== Proof.RefRead.lean ====
/-
  The reference's run read stretch by stretch: after each stretch, every value a later stretch reads is the stage
  function of the arguments (a stretch's operations applied to values the stretch before left in that form), every
  other buffer keeps what it held, and no operation writes an argument.  After the last stretch the result buffer
  holds the last stage function of the six arguments.
-/
import proofs.«154826_j3015067042303_2_alg».proof.Proof.RefRun
import proofs.«154826_j3015067042303_2_alg».proof.Proof.ReadP

set_option maxRecDepth 16384

noncomputable section

namespace Cert.ReferenceIdeal.HandRead

open Cert.ReferenceIdeal Cert.ReferenceIdeal.Gen Cert.ReferenceIdeal.Read Cert.ReferenceIdeal.HandRun
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- Core c's buffers after each of the seven stretches. -/
def WA : Valuation τ sig (Elt F) := after opsA (launchContents m c)
def WB : Valuation τ sig (Elt F) := after opsB (WA m c)
def WC : Valuation τ sig (Elt F) := after opsC (WB m c)
def WD : Valuation τ sig (Elt F) := after opsD (WC m c)
def WE : Valuation τ sig (Elt F) := after opsE (WD m c)
def WF : Valuation τ sig (Elt F) := after opsF (WE m c)
def WG : Valuation τ sig (Elt F) := after opsG (WF m c)

/-! ## The typed references' transports

An outlined function's operations read and write their buffers through typed references; contents go to the buffer's
type and back along the reference's type equation.  Going there and back is the identity, and for a literal reference
whose type is the value's each direction is. -/

theorem ofBuf_toBuf {T : BufTy} (x : TRef sig T) (v : T.Contents (Elt F)) : x.ofBuf (x.toBuf v) = v := by
  obtain ⟨r, rfl, hd, hs⟩ := x
  rfl

theorem toBuf_v115 (v : (⟨S100000x16, .f32⟩ : BufTy).Contents (Elt F)) :
    TRef.toBuf (Val := Elt F) (TRef.of (sig := sig) (T := ⟨S100000x16, .f32⟩) main_v115) v = v := rfl

theorem ofBuf_v114 (z : (⟨S100000x16, .f32⟩ : BufTy).Contents (Elt F)) :
    TRef.ofBuf (Val := Elt F) (TRef.of (sig := sig) (T := ⟨S100000x16, .f32⟩) main_v114) z = z := rfl

/-! ## No operation writes an argument -/
theorem a_arg0 : WA m c (Proc.devRef .tc main_arg0) = m ((c.tc : Thread nD τ).loc main_arg0) := by
  unfold WA; after_results_simp <;> rfl
theorem a_arg1 : WA m c (Proc.devRef .tc main_arg1) = m ((c.tc : Thread nD τ).loc main_arg1) := by
  unfold WA; after_results_simp <;> rfl
theorem a_arg2 : WA m c (Proc.devRef .tc main_arg2) = m ((c.tc : Thread nD τ).loc main_arg2) := by
  unfold WA; after_results_simp <;> rfl
theorem a_arg3 : WA m c (Proc.devRef .tc main_arg3) = m ((c.tc : Thread nD τ).loc main_arg3) := by
  unfold WA; after_results_simp <;> rfl
theorem a_arg4 : WA m c (Proc.devRef .tc main_arg4) = m ((c.tc : Thread nD τ).loc main_arg4) := by
  unfold WA; after_results_simp <;> rfl
theorem a_arg5 : WA m c (Proc.devRef .tc main_arg5) = m ((c.tc : Thread nD τ).loc main_arg5) := by
  unfold WA; after_results_simp <;> rfl
theorem b_arg0 : WB m c (Proc.devRef .tc main_arg0) = m ((c.tc : Thread nD τ).loc main_arg0) := by
  unfold WB; after_results_simp; rw [a_arg0]
theorem b_arg1 : WB m c (Proc.devRef .tc main_arg1) = m ((c.tc : Thread nD τ).loc main_arg1) := by
  unfold WB; after_results_simp; rw [a_arg1]
theorem b_arg2 : WB m c (Proc.devRef .tc main_arg2) = m ((c.tc : Thread nD τ).loc main_arg2) := by
  unfold WB; after_results_simp; rw [a_arg2]
theorem b_arg3 : WB m c (Proc.devRef .tc main_arg3) = m ((c.tc : Thread nD τ).loc main_arg3) := by
  unfold WB; after_results_simp; rw [a_arg3]
theorem b_arg4 : WB m c (Proc.devRef .tc main_arg4) = m ((c.tc : Thread nD τ).loc main_arg4) := by
  unfold WB; after_results_simp; rw [a_arg4]
theorem b_arg5 : WB m c (Proc.devRef .tc main_arg5) = m ((c.tc : Thread nD τ).loc main_arg5) := by
  unfold WB; after_results_simp; rw [a_arg5]
theorem c_arg0 : WC m c (Proc.devRef .tc main_arg0) = m ((c.tc : Thread nD τ).loc main_arg0) := by
  unfold WC; after_results_simp; rw [b_arg0]
theorem c_arg1 : WC m c (Proc.devRef .tc main_arg1) = m ((c.tc : Thread nD τ).loc main_arg1) := by
  unfold WC; after_results_simp; rw [b_arg1]
theorem c_arg2 : WC m c (Proc.devRef .tc main_arg2) = m ((c.tc : Thread nD τ).loc main_arg2) := by
  unfold WC; after_results_simp; rw [b_arg2]
theorem c_arg3 : WC m c (Proc.devRef .tc main_arg3) = m ((c.tc : Thread nD τ).loc main_arg3) := by
  unfold WC; after_results_simp; rw [b_arg3]
theorem c_arg4 : WC m c (Proc.devRef .tc main_arg4) = m ((c.tc : Thread nD τ).loc main_arg4) := by
  unfold WC; after_results_simp; rw [b_arg4]
theorem c_arg5 : WC m c (Proc.devRef .tc main_arg5) = m ((c.tc : Thread nD τ).loc main_arg5) := by
  unfold WC; after_results_simp; rw [b_arg5]
theorem d_arg0 : WD m c (Proc.devRef .tc main_arg0) = m ((c.tc : Thread nD τ).loc main_arg0) := by
  unfold WD; after_results_simp; rw [c_arg0]
theorem d_arg1 : WD m c (Proc.devRef .tc main_arg1) = m ((c.tc : Thread nD τ).loc main_arg1) := by
  unfold WD; after_results_simp; rw [c_arg1]
theorem d_arg2 : WD m c (Proc.devRef .tc main_arg2) = m ((c.tc : Thread nD τ).loc main_arg2) := by
  unfold WD; after_results_simp; rw [c_arg2]
theorem d_arg3 : WD m c (Proc.devRef .tc main_arg3) = m ((c.tc : Thread nD τ).loc main_arg3) := by
  unfold WD; after_results_simp; rw [c_arg3]
theorem d_arg4 : WD m c (Proc.devRef .tc main_arg4) = m ((c.tc : Thread nD τ).loc main_arg4) := by
  unfold WD; after_results_simp; rw [c_arg4]
theorem d_arg5 : WD m c (Proc.devRef .tc main_arg5) = m ((c.tc : Thread nD τ).loc main_arg5) := by
  unfold WD; after_results_simp; rw [c_arg5]
theorem e_arg0 : WE m c (Proc.devRef .tc main_arg0) = m ((c.tc : Thread nD τ).loc main_arg0) := by
  unfold WE; after_results_simp; rw [d_arg0]
theorem e_arg1 : WE m c (Proc.devRef .tc main_arg1) = m ((c.tc : Thread nD τ).loc main_arg1) := by
  unfold WE; after_results_simp; rw [d_arg1]
theorem e_arg2 : WE m c (Proc.devRef .tc main_arg2) = m ((c.tc : Thread nD τ).loc main_arg2) := by
  unfold WE; after_results_simp; rw [d_arg2]
theorem e_arg3 : WE m c (Proc.devRef .tc main_arg3) = m ((c.tc : Thread nD τ).loc main_arg3) := by
  unfold WE; after_results_simp; rw [d_arg3]
theorem e_arg4 : WE m c (Proc.devRef .tc main_arg4) = m ((c.tc : Thread nD τ).loc main_arg4) := by
  unfold WE; after_results_simp; rw [d_arg4]
theorem e_arg5 : WE m c (Proc.devRef .tc main_arg5) = m ((c.tc : Thread nD τ).loc main_arg5) := by
  unfold WE; after_results_simp; rw [d_arg5]
theorem f_arg0 : WF m c (Proc.devRef .tc main_arg0) = m ((c.tc : Thread nD τ).loc main_arg0) := by
  unfold WF; after_results_simp; rw [e_arg0]
theorem f_arg1 : WF m c (Proc.devRef .tc main_arg1) = m ((c.tc : Thread nD τ).loc main_arg1) := by
  unfold WF; after_results_simp; rw [e_arg1]
theorem f_arg2 : WF m c (Proc.devRef .tc main_arg2) = m ((c.tc : Thread nD τ).loc main_arg2) := by
  unfold WF; after_results_simp; rw [e_arg2]
theorem f_arg3 : WF m c (Proc.devRef .tc main_arg3) = m ((c.tc : Thread nD τ).loc main_arg3) := by
  unfold WF; after_results_simp; rw [e_arg3]
theorem f_arg4 : WF m c (Proc.devRef .tc main_arg4) = m ((c.tc : Thread nD τ).loc main_arg4) := by
  unfold WF; after_results_simp; rw [e_arg4]
theorem f_arg5 : WF m c (Proc.devRef .tc main_arg5) = m ((c.tc : Thread nD τ).loc main_arg5) := by
  unfold WF; after_results_simp; rw [e_arg5]
theorem g_arg0 : WG m c (Proc.devRef .tc main_arg0) = m ((c.tc : Thread nD τ).loc main_arg0) := by
  unfold WG; after_results_simp; rw [f_arg0]
theorem g_arg1 : WG m c (Proc.devRef .tc main_arg1) = m ((c.tc : Thread nD τ).loc main_arg1) := by
  unfold WG; after_results_simp; rw [f_arg1]
theorem g_arg2 : WG m c (Proc.devRef .tc main_arg2) = m ((c.tc : Thread nD τ).loc main_arg2) := by
  unfold WG; after_results_simp; rw [f_arg2]
theorem g_arg3 : WG m c (Proc.devRef .tc main_arg3) = m ((c.tc : Thread nD τ).loc main_arg3) := by
  unfold WG; after_results_simp; rw [f_arg3]
theorem g_arg4 : WG m c (Proc.devRef .tc main_arg4) = m ((c.tc : Thread nD τ).loc main_arg4) := by
  unfold WG; after_results_simp; rw [f_arg4]
theorem g_arg5 : WG m c (Proc.devRef .tc main_arg5) = m ((c.tc : Thread nD τ).loc main_arg5) := by
  unfold WG; after_results_simp; rw [f_arg5]

/-! ## After the first stretch: x · W₁, the edge vectors, the weights and deg^(-1/2) -/
theorem a_v0 : WA m c (Proc.devRef .tc main_v0) = val_main_v0 (F := F) (m ((c.tc : Thread nD τ).loc main_arg0)) (m ((c.tc : Thread nD τ).loc main_arg2)) := by
  unfold WA; after_results_simp
  rfl
theorem a_v2 : WA m c (Proc.devRef .tc main_v2) = val_main_v2 (F := F) (m ((c.tc : Thread nD τ).loc main_arg1)) := by
  unfold WA; after_results_simp
  rfl
theorem a_v4 : WA m c (Proc.devRef .tc main_v4) = val_main_v4 (F := F) (m ((c.tc : Thread nD τ).loc main_arg1)) := by
  unfold WA; after_results_simp
  rfl
theorem a_v6 : WA m c (Proc.devRef .tc main_v6) = val_main_v6 (F := F) (m ((c.tc : Thread nD τ).loc main_arg1)) := by
  unfold WA; after_results_simp
  rfl
theorem a_v16 : WA m c (Proc.devRef .tc main_v16) = val_main_v16 (F := F) (m ((c.tc : Thread nD τ).loc main_arg1)) := by
  unfold WA; after_results_simp
  rfl

/-! ## After the second: the edges' normalised weights -/
theorem b_v33 : WB m c (Proc.devRef .tc main_v33) = val_main_v33 (F := F) (m ((c.tc : Thread nD τ).loc main_arg1)) := by
  unfold WB; after_results_simp
  rw [a_v6, a_v16, a_v2, a_v4]
  rfl
theorem b_v0 : WB m c (Proc.devRef .tc main_v0) = val_main_v0 (F := F) (m ((c.tc : Thread nD τ).loc main_arg0)) (m ((c.tc : Thread nD τ).loc main_arg2)) := by
  unfold WB; after_results_simp; rw [a_v0]
theorem b_v2 : WB m c (Proc.devRef .tc main_v2) = val_main_v2 (F := F) (m ((c.tc : Thread nD τ).loc main_arg1)) := by
  unfold WB; after_results_simp; rw [a_v2]
theorem b_v4 : WB m c (Proc.devRef .tc main_v4) = val_main_v4 (F := F) (m ((c.tc : Thread nD τ).loc main_arg1)) := by
  unfold WB; after_results_simp; rw [a_v4]
theorem b_v16 : WB m c (Proc.devRef .tc main_v16) = val_main_v16 (F := F) (m ((c.tc : Thread nD τ).loc main_arg1)) := by
  unfold WB; after_results_simp; rw [a_v16]

/-! ## After the third: layer 1's output -/
theorem c_v57 : WC m c (Proc.devRef .tc main_v57) = val_main_v57 (F := F) (m ((c.tc : Thread nD τ).loc main_arg0)) (m ((c.tc : Thread nD τ).loc main_arg1)) (m ((c.tc : Thread nD τ).loc main_arg2)) (m ((c.tc : Thread nD τ).loc main_arg3)) := by
  unfold WC; after_results_simp
  rw [b_v0, b_v2, b_v4, b_v33, b_v16, b_arg3]
  rfl

/-! ## After the fourth: layer 2's product, and the structure computed again -/
theorem d_v58 : WD m c (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold WD; after_results_simp
  rw [c_v57, c_arg4]
  rfl
theorem d_v60 : WD m c (Proc.devRef .tc main_v60) = val_main_v60 (F := F) (m ((c.tc : Thread nD τ).loc main_arg1)) := by
  unfold WD; after_results_simp
  rw [c_arg1]
  rfl
theorem d_v62 : WD m c (Proc.devRef .tc main_v62) = val_main_v62 (F := F) (m ((c.tc : Thread nD τ).loc main_arg1)) := by
  unfold WD; after_results_simp
  rw [c_arg1]
  rfl
theorem d_v64 : WD m c (Proc.devRef .tc main_v64) = val_main_v64 (F := F) (m ((c.tc : Thread nD τ).loc main_arg1)) := by
  unfold WD; after_results_simp
  rw [c_arg1]
  rfl
theorem d_v74 : WD m c (Proc.devRef .tc main_v74) = val_main_v74 (F := F) (m ((c.tc : Thread nD τ).loc main_arg1)) := by
  unfold WD; after_results_simp
  rw [c_arg1]
  rfl

/-! ## After the fifth: the edges' normalised weights, again -/
theorem e_v91 : WE m c (Proc.devRef .tc main_v91) = val_main_v91 (F := F) (m ((c.tc : Thread nD τ).loc main_arg1)) := by
  unfold WE; after_results_simp
  rw [d_v64, d_v74, d_v60, d_v62]
  rfl
theorem e_v58 : WE m c (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold WE; after_results_simp; rw [d_v58]
theorem e_v60 : WE m c (Proc.devRef .tc main_v60) = val_main_v60 (F := F) (m ((c.tc : Thread nD τ).loc main_arg1)) := by
  unfold WE; after_results_simp; rw [d_v60]
theorem e_v62 : WE m c (Proc.devRef .tc main_v62) = val_main_v62 (F := F) (m ((c.tc : Thread nD τ).loc main_arg1)) := by
  unfold WE; after_results_simp; rw [d_v62]
theorem e_v74 : WE m c (Proc.devRef .tc main_v74) = val_main_v74 (F := F) (m ((c.tc : Thread nD τ).loc main_arg1)) := by
  unfold WE; after_results_simp; rw [d_v74]

/-! ## After the sixth: layer 2's pre-activation -/
theorem f_v114 : WF m c (Proc.devRef .tc main_v114) = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold WF; after_results_simp
  rw [e_v58, e_v60, e_v62, e_v91, e_v74, e_arg5]
  rfl

/-! ## After the last: the result -/
theorem g_v115 : WG m c (Proc.devRef .tc main_v115) = val_main_v115 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold WG; after_results_simp
  rw [f_v114]
  simp only [ofBuf_toBuf]
  rw [toBuf_v115, ofBuf_v114]
  rfl

/-- The run, read: the result buffer ends at the last stage function of the arguments as launched, the arguments
    unchanged. -/
theorem run (ρ : Dev nD → PrngReg) :
    θ_run defs (onTc (τ := τ) (main (F := F))) ⟨m, fun _ => 0, ρ⟩ fun r => ∀ c : Dev nD,
      r.2.mem ((c.tc : Thread nD τ).loc main_v115) = val_main_v115 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v115).trans (g_v115 m c),
      (h c main_arg0).trans (g_arg0 m c), (h c main_arg1).trans (g_arg1 m c), (h c main_arg2).trans (g_arg2 m c),
      (h c main_arg3).trans (g_arg3 m c), (h c main_arg4).trans (g_arg4 m c), (h c main_arg5).trans (g_arg5 m c)⟩)
    (HandRun.run m ρ)

end Cert.ReferenceIdeal.HandRead

end
-- ==== Proof.RefStagesA.lean ====
/-
  The reference's layer 1 and layer 2's linear map, stage by stage: each of its dot_generals is the plain matrix
  product, and its layer-1 epilogue (two broadcasts, a product, two sums, a maximum with zero) is
  max((agg + h · s) + b, 0) with s read at the row and b at the column.
-/
import proofs.«154826_j3015067042303_2_alg».proof.Proof.ReadP
import proofs.«154826_j3015067042303_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.StagesA

open Cert.ReferenceIdeal Cert.ReferenceIdeal.Gen Cert.ReferenceIdeal.Read
open Idealize.ShloMosaic Idealize.ShloMosaic.TcCoe Idealize.SL.Sem Idealize.ShloMosaic.ValueIdx

variable (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x16, .f32⟩ : BufTy).Contents (Elt Ideal))

/-- The first dot_general is x · W₁. -/
theorem lin1_eq : val_main_v0 (F := Ideal) x0 x2 = Cert.Gcn.lin1 x0 x2 := by
  funext i
  obtain ⟨p, q, rfl⟩ : ∃ (p : Fin 100000) (q : Fin 64), i = ix2 p q := ⟨i 0, i 1, eq_ix2 i⟩
  -- at (p, q) the left operand is read at (p, k) and the right at (k, q)
  have el : ∀ k : Fin 512, lidx_main_v0 (ix2 p q) k = ix2 p k := fun k =>
    funext fun a => Fin.ext (by match a with | ⟨0, _⟩ => rfl | ⟨1, _⟩ => rfl)
  have er : ∀ k : Fin 512, ridx_main_v0 (ix2 p q) k = ix2 k q := fun k =>
    funext fun a => Fin.ext (by match a with | ⟨0, _⟩ => rfl | ⟨1, _⟩ => rfl)
  rw [val_main_v0_apply, Cert.Gcn.lin1_apply]
  exact Finset.sum_congr rfl fun k _ => by rw [el, er]

/-- Layer 1's output is max((agg + h · s) + b, 0) of the dot_general h, the scatter-add agg and the self-loop
    coefficient s. -/
theorem act1_eq : val_main_v57 (F := Ideal) x0 x1 x2 x3
    = Cert.Gcn.act1 (val_main_v0 (F := Ideal) x0 x2) (val_main_v46 (F := Ideal) x0 x1 x2) (val_main_v49 (F := Ideal) x1) x3 := by
  funext i
  obtain ⟨p, q, rfl⟩ : ∃ (p : Fin 100000) (q : Fin 64), i = ix2 p q := ⟨i 0, i 1, eq_ix2 i⟩
  -- the coefficient, spread as a column over the 64 columns, is read at the row p
  have e51 : idx_main_v51 (ix2 p q) = ix2 p (0 : Fin 1) :=
    funext fun a => Fin.ext (by match a with | ⟨0, _⟩ => rfl | ⟨1, _⟩ => rfl)
  have e50 : idx_main_v50 (ix2 p (0 : Fin 1)) = ix1 p :=
    funext fun a => Fin.ext (by match a with | ⟨0, _⟩ => rfl)
  -- the bias, spread as a row over the 100000 rows, is read at the column q
  have e55 : idx_main_v55 (ix2 p q) = ix2 (0 : Fin 1) q :=
    funext fun a => Fin.ext (by match a with | ⟨0, _⟩ => rfl | ⟨1, _⟩ => rfl)
  have e54 : idx_main_v54 (ix2 (0 : Fin 1) q) = ix1 q :=
    funext fun a => Fin.ext (by match a with | ⟨0, _⟩ => rfl)
  rw [val_main_v57_apply, val_main_v56_apply, val_main_v53_apply, val_main_v52_apply, val_main_v51_apply, e51,
    val_main_v50_apply, e50, val_main_v55_apply, e55, val_main_v54_apply, e54, val_main_call2_v0_apply,
    val_main_call2_cst_apply, Cert.Gcn.act1_apply]
  rfl

/-- The second dot_general is (layer 1's output) · W₂. -/
theorem lin2_eq : val_main_v58 (F := Ideal) x0 x1 x2 x3 x4 = Cert.Gcn.lin2 (val_main_v57 (F := Ideal) x0 x1 x2 x3) x4 := by
  funext i
  obtain ⟨p, q, rfl⟩ : ∃ (p : Fin 100000) (q : Fin 16), i = ix2 p q := ⟨i 0, i 1, eq_ix2 i⟩
  -- at (p, q) the left operand is read at (p, k) and the right at (k, q)
  have el : ∀ k : Fin 64, lidx_main_v58 (ix2 p q) k = ix2 p k := fun k =>
    funext fun a => Fin.ext (by match a with | ⟨0, _⟩ => rfl | ⟨1, _⟩ => rfl)
  have er : ∀ k : Fin 64, ridx_main_v58 (ix2 p q) k = ix2 k q := fun k =>
    funext fun a => Fin.ext (by match a with | ⟨0, _⟩ => rfl | ⟨1, _⟩ => rfl)
  rw [val_main_v58_apply, Cert.Gcn.lin2_apply]
  exact Finset.sum_congr rfl fun k _ => by rw [el, er]

end Cert.ReferenceIdeal.StagesA

end
-- ==== Proof.RefStagesB.lean ====
/-
  The reference's layer-2 epilogue and its log_softmax, stage by stage: the result is the row-wise log-softmax
  (z − M) − log Σⱼ exp(zⱼ − M) of z = (agg + h · s) + b, M the row's maximum: the reduce with max from −∞, then the
  maximum with −∞ again, is the fold of max from −∞; the reduce with add from 0 is the row's sum.
-/
import proofs.«154826_j3015067042303_2_alg».proof.Proof.ReadP
import proofs.«154826_j3015067042303_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.StagesB

open Cert.ReferenceIdeal Cert.ReferenceIdeal.Gen Cert.ReferenceIdeal.Read
open Idealize.ShloMosaic Idealize.ShloMosaic.TcCoe Idealize.SL.Sem Idealize.ShloMosaic.ValueIdx

variable (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal))

/-! ## Layer 2's pre-activation -/

/-- Stage 114 at (p, q) is (agg + h · s) + b there: the coefficient's two broadcasts read it at the row, the bias's
    two broadcasts read it at the column. -/
theorem z_apply (p : Fin 100000) (q : Fin 16) :
    val_main_v114 (F := Ideal) x0 x1 x2 x3 x4 x5 (ix2 p q)
      = Cert.Gcn.pre2 (val_main_v58 (F := Ideal) x0 x1 x2 x3 x4) (val_main_v104 (F := Ideal) x0 x1 x2 x3 x4)
          (val_main_v107 (F := Ideal) x1) x5 (ix2 p q) := by
  have e1 : idx_main_v108 (idx_main_v109 (ix2 p q)) = ix1 p :=
    funext fun a => Fin.ext (by match a with | ⟨0, _⟩ => rfl)
  have e2 : idx_main_v112 (idx_main_v113 (ix2 p q)) = ix1 q :=
    funext fun a => Fin.ext (by match a with | ⟨0, _⟩ => rfl)
  rw [val_main_v114_apply, val_main_v111_apply, val_main_v110_apply, val_main_v109_apply, val_main_v108_apply,
    val_main_v113_apply, val_main_v112_apply, e1, e2, Cert.Gcn.pre2_apply]
  rfl

/-- So stage 114 is layer 2's pre-activation. -/
theorem z_eq : val_main_v114 (F := Ideal) x0 x1 x2 x3 x4 x5
    = Cert.Gcn.pre2 (val_main_v58 (F := Ideal) x0 x1 x2 x3 x4) (val_main_v104 (F := Ideal) x0 x1 x2 x3 x4)
        (val_main_v107 (F := Ideal) x1) x5 := by
  funext i
  obtain ⟨p, q, rfl⟩ : ∃ (p : Fin 100000) (q : Fin 16), i = ix2 p q := ⟨i 0, i 1, eq_ix2 i⟩
  exact z_apply x0 x1 x2 x3 x4 x5 p q

/-! ## The row's maximum and the row's sum -/

/-- The reduced axis put back, as a witness beside the program's own shape fact. -/
theorem red : S100000x16.Reduces [1] S100000 := by decide

/-- The reduced index p with column k put back is (p, k). -/
theorem lift_row (p : Fin 100000) (k : Fin 16) : red.lift (ix1 p) k = ix2 p k := by
  funext a
  apply Fin.ext
  match a with
  | ⟨0, _⟩ => rfl
  | ⟨1, _⟩ => rfl

/-- The fold of max from w is at least w. -/
theorem max_fold_self (w : EReal) (g : Fin 16 → EReal) :
    max w ((Finset.univ : Finset (Fin 16)).fold max w g) = (Finset.univ : Finset (Fin 16)).fold max w g :=
  max_eq_right ((Finset.le_fold_max w).mpr (Or.inl le_rfl))

/-- The reduce with max from −∞ of any array, then the maximum with −∞ again, is the row's maximum. -/
theorem rowmax_of (z : (⟨S100000x16, .f32⟩ : BufTy).Contents (Elt Ideal)) (p : Fin 100000) :
    FloatOps.maximumf (FloatOps.ofBits (F := Ideal) .f32 0xFF800000#32)
        (Host.reduce FloatOps.maximumf z (val_main_call5_cst (F := Ideal)) reducesTo_S100000x16_S100000_d1 h_S_ (ix1 p))
      = Cert.Gcn.rowMax z p := by
  have hred := Host.reduce_eq_fold_single (FloatOps.maximumf (F := Ideal) (φ := .f32)) z (val_main_call5_cst (F := Ideal))
    reducesTo_S100000x16_S100000_d1 red h_S_ (ix1 p)
  have hfold : (Finset.univ : Finset (Fin 16)).fold max (Ideal.ofBits .f32 0xFF800000#32) (z ∘ red.lift (ix1 p))
      = Cert.Gcn.rowMax z p := by
    unfold Cert.Gcn.rowMax
    exact congrArg (fun f => (Finset.univ : Finset (Fin 16)).fold max (Ideal.ofBits .f32 0xFF800000#32) f)
      (funext fun k => congrArg z (lift_row p k))
  rw [hred]
  refine Eq.trans ?_ hfold
  exact max_fold_self (Ideal.ofBits .f32 0xFF800000#32) (z ∘ red.lift (ix1 p))

/-- The reduce with max from −∞, then the maximum with −∞ again, is the row's maximum: the fold of max from −∞ is
    at least −∞. -/
theorem rowmax_apply (p : Fin 100000) :
    val_main_call5_v2 (F := Ideal) x0 x1 x2 x3 x4 x5 (ix1 p)
      = Cert.Gcn.rowMax (val_main_v114 (F := Ideal) x0 x1 x2 x3 x4 x5) p := by
  rw [val_main_call5_v2_apply, val_main_call5_v1_apply, val_main_call5_cst_0_apply]
  unfold val_main_call5_v0
  generalize val_main_v114 (F := Ideal) x0 x1 x2 x3 x4 x5 = z
  exact rowmax_of z p

/-- The entry less its row's maximum. -/
theorem shifted_apply (p : Fin 100000) (q : Fin 16) :
    val_main_call5_v5 (F := Ideal) x0 x1 x2 x3 x4 x5 (ix2 p q)
      = val_main_v114 (F := Ideal) x0 x1 x2 x3 x4 x5 (ix2 p q)
        - Cert.Gcn.rowMax (val_main_v114 (F := Ideal) x0 x1 x2 x3 x4 x5) p := by
  have e : idx_main_call5_v3 (idx_main_call5_v4 (ix2 p q)) = ix1 p :=
    funext fun a => Fin.ext (by match a with | ⟨0, _⟩ => rfl)
  rw [val_main_call5_v5_apply, val_main_call5_v4_apply, val_main_call5_v3_apply, e, rowmax_apply, Ideal.subf_def]

/-- The reduce with add from 0 is the row's sum of the exponentials. -/
theorem rowsum_apply (p : Fin 100000) :
    val_main_call5_v7 (F := Ideal) x0 x1 x2 x3 x4 x5 (ix1 p)
      = ∑ j : Fin 16, Ideal.exp (val_main_v114 (F := Ideal) x0 x1 x2 x3 x4 x5 (ix2 p j)
          - Cert.Gcn.rowMax (val_main_v114 (F := Ideal) x0 x1 x2 x3 x4 x5) p) := by
  rw [val_main_call5_v7_apply, val_main_call5_cst_1_apply, Ideal.ofBits_def, Ideal.ofBits_zero_f32, zero_add]
  refine Finset.sum_congr rfl fun k _ => ?_
  have e : idx_main_call5_v7 (ix1 p) k = ix2 p k :=
    funext fun a => Fin.ext (by match a with | ⟨0, _⟩ => rfl | ⟨1, _⟩ => rfl)
  rw [e, val_main_call5_v6_apply, shifted_apply, Ideal.hostUnary_exp_def]

/-! ## The result -/

/-- The reference's result is the row-wise log-softmax of layer 2's pre-activation. -/
theorem lsm_eq : val_main_v115 (F := Ideal) x0 x1 x2 x3 x4 x5
    = Cert.Gcn.lsm (Cert.Gcn.pre2 (val_main_v58 (F := Ideal) x0 x1 x2 x3 x4) (val_main_v104 (F := Ideal) x0 x1 x2 x3 x4)
        (val_main_v107 (F := Ideal) x1) x5) := by
  rw [← z_eq]
  funext i
  obtain ⟨p, q, rfl⟩ : ∃ (p : Fin 100000) (q : Fin 16), i = ix2 p q := ⟨i 0, i 1, eq_ix2 i⟩
  have e : idx_main_call5_v8 (idx_main_call5_v10 (ix2 p q)) = ix1 p :=
    funext fun a => Fin.ext (by match a with | ⟨0, _⟩ => rfl)
  rw [Cert.Gcn.lsm_apply, val_main_v115_apply, shifted_apply, val_main_call5_v10_apply, val_main_call5_v9_apply,
    val_main_call5_v8_apply, e, rowsum_apply, Ideal.subf_def, Ideal.hostUnary_log_def]

end Cert.ReferenceIdeal.StagesB

end
-- ==== Proof.RefNet.lean ====
/-
  The idealized reference computes the network: its last stage is the log-softmax of layer 2's pre-activation, its two
  dot_generals are the matrix products, its layer-1 epilogue is the activation — and its scatter-add / gather stages
  are the host functions of the edge array the kernel program applies (the same operations on the same values: the
  reference computes the degree normalisation once per layer, the kernel program once, to the same functions).
-/
import proofs.«154826_j3015067042303_2_alg».proof.Proof.ReadP
import proofs.«154826_j3015067042303_2_alg».proof.Proof.RefStagesA
import proofs.«154826_j3015067042303_2_alg».proof.Proof.RefStagesB
import proofs.«154826_j3015067042303_2_alg».proof.Proof.Net

set_option maxRecDepth 16384

noncomputable section

namespace Cert.ReferenceIdeal.NetValue

open Cert.ReferenceIdeal Cert.ReferenceIdeal.Gen Cert.ReferenceIdeal.Read
open Idealize.ShloMosaic Idealize.ShloMosaic.TcCoe

variable (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal))

/-- Layer 1's scatter-add stage is the neighbour sum of the first dot_general. -/
theorem agg1_eq : val_main_v46 (F := Ideal) x0 x1 x2
    = Cert.KernelIdeal.HostVal.agg1 (F := Ideal) (val_main_v0 (F := Ideal) x0 x2) x1 := rfl

/-- Layer 1's self-loop coefficient stage. -/
theorem selfc1_eq : val_main_v49 (F := Ideal) x1 = Cert.KernelIdeal.HostVal.selfc (F := Ideal) x1 := rfl

/-- Layer 2's scatter-add stage is the neighbour sum of the second dot_general (over the structure computed again). -/
theorem agg2_eq : val_main_v104 (F := Ideal) x0 x1 x2 x3 x4
    = Cert.KernelIdeal.HostVal.agg2 (F := Ideal) (val_main_v58 (F := Ideal) x0 x1 x2 x3 x4) x1 := rfl

/-- Layer 2's self-loop coefficient stage (computed again, the same function). -/
theorem selfc2_eq : val_main_v107 (F := Ideal) x1 = Cert.KernelIdeal.HostVal.selfc (F := Ideal) x1 := rfl

/-- Layer 1's output stage is the network's hidden layer. -/
theorem hidden_eq : val_main_v57 (F := Ideal) x0 x1 x2 x3 = Cert.Gcn.hidden x0 x1 x2 x3 := by
  rw [StagesA.act1_eq, agg1_eq, selfc1_eq, StagesA.lin1_eq]
  rfl

/-- The reference's last stage is the network's output. -/
theorem net_eq : val_main_v115 (F := Ideal) x0 x1 x2 x3 x4 x5 = Cert.Gcn.net x0 x1 x2 x3 x4 x5 := by
  rw [StagesB.lsm_eq, agg2_eq, selfc2_eq, StagesA.lin2_eq, hidden_eq]
  rfl

end Cert.ReferenceIdeal.NetValue

end
-- ==== Proof.lean ====
/-
  A two-layer graph-convolution network in four kernel launches among host operations, against its plain reference,
  on the extended reals.

  Per layer:  h = x · W  (a launch: 20 row blocks of 5000, the whole weight matrix fetched at every point; against the
  reference's dot_general both are Σₖ x[p, k] · W[k, q]);  agg = the neighbour sum of h, a scatter-add of gathered rows
  scaled by the edges' normalised weights — host operations of the edge array that BOTH programs apply, carried as one
  function and never opened;  out = act((agg + h · s) + b)  (a launch over row blocks: s, the self-loop weight, read
  at the row, b at the column).  Layer 1 maps 512 → 64 features with act = max(·, 0); layer 2 maps 64 → 16 with the
  row-wise log-softmax (z − M) − log Σⱼ exp(zⱼ − M), M the row's maximum: the kernel's lane reductions and the
  reference's reduces are the same fold of max and the same sum over the row's 16 entries.

  Both programs therefore end at ONE function of the six arguments (Proof/Net.lean): the kernel program by following
  its result buffer back through the launches and stretches (Proof/KValue.lean), the reference by reading its run
  stretch by stretch (Proof/RefRead.lean, Proof/RefNet.lean).  The precondition is never opened: no step of either
  reading needs the inputs finite.  The ideal pass rewrote nothing, so the
  kernel's idealization is its own text read at the exact instance.
-/
import proofs.«154826_j3015067042303_2_alg».proof.Defs
import proofs.«154826_j3015067042303_2_alg».proof.Proof.Gen.Kernel
import proofs.«154826_j3015067042303_2_alg».proof.Proof.Gen.Kernel.Skeleton
import proofs.«154826_j3015067042303_2_alg».proof.Proof.Gen.Kernel.Launch
import proofs.«154826_j3015067042303_2_alg».proof.Proof.Gen.Kernel.Points
import proofs.«154826_j3015067042303_2_alg».proof.Proof.Gen.Kernel.Frame
import proofs.«154826_j3015067042303_2_alg».proof.Proof.Gen.KernelIdeal
import proofs.«154826_j3015067042303_2_alg».proof.Proof.Gen.KernelIdeal.Skeleton
import proofs.«154826_j3015067042303_2_alg».proof.Proof.Gen.KernelIdeal.Launch
import proofs.«154826_j3015067042303_2_alg».proof.Proof.Gen.KernelIdeal.Points
import proofs.«154826_j3015067042303_2_alg».proof.Proof.Gen.KernelIdeal.Frame
import proofs.«154826_j3015067042303_2_alg».proof.Proof.Gen.ReferenceIdeal
import proofs.«154826_j3015067042303_2_alg».proof.Proof.Gen.Pre_finite_inputs
import proofs.«154826_j3015067042303_2_alg».proof.Proof.KValue
import proofs.«154826_j3015067042303_2_alg».proof.Proof.RefRead
import proofs.«154826_j3015067042303_2_alg».proof.Proof.RefNet
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.HandRead.run (F := Ideal) m ρ)

/-- The ideal pass rewrote no operation. -/
theorem preserves : Cert.preserves_Kernel_KernelIdeal := trivial

/-- From memories agreeing on the arguments both idealized programs end at the network's output of those arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.NetValue.run m ρ, ?_⟩
  refine (θ_run Cert.ReferenceIdeal.defs _ _).mono (fun _ h c => ⟨(h c).1.trans ?_, (h c).2⟩)
    (Cert.ReferenceIdeal.HandRead.run (F := Ideal) m' ρ')
  rw [Cert.ReferenceIdeal.NetValue.net_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
